-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x625000 : Shape := ⟨2, ![2, 625000]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg16 : FVec F S128 .f32) (main_arg17 : FVec F S128x6 .f32) (main_arg18 : FVec F S6 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x6 .f32 := Host.absf main_arg17
  let main_cst_28 : FVec F S_ .f32 := constant S_ .f32 0x7F800000#32
  let main_v75 : FVec F S128x6 .f32 := broadcastInDim S128x6 ![] bcast_S_S128x6 main_cst_28
  let main_v76 : IVec S128x6 1 := cmpf .olt main_v74 main_v75
  let main_c_29 : IVec S_ 1 := constantI S_ 1 1#1
  let main_v77 : IVec S_ 1 := (fun x v => Host.reduce IntOp.andi x v reducesTo_S128x6_S_d0_1 h_S_) main_v76 main_c_29
  let main_v78 : IVec S_ 1 := andi main_v73 main_v77
  let main_v79 : FVec F S6 .f32 := Host.absf main_arg18
  let main_cst_30 : FVec F S_ .f32 := constant S_ .f32 0x7F800000#32
  let main_v80 : FVec F S6 .f32 := broadcastInDim S6 ![] bcast_S_S6 main_cst_30
  let main_v81 : IVec S6 1 := cmpf .olt main_v79 main_v80
  let main_c_31 : IVec S_ 1 := constantI S_ 1 1#1
  let main_v82 : IVec S_ 1 := (fun x v => Host.reduce IntOp.andi x v reducesTo_S6_S_d0 h_S_) main_v81 main_c_31
  let main_v83 : IVec S_ 1 := andi main_v78 main_v82
  main_v83

def fn_part3 {F : FTy → Type} [FloatOps F] (main_arg13 : FVec F S128 .f32) (main_arg14 : FVec F S128x128 .f32) (main_arg15 : FVec F S128x128 .f32) (main_arg16 : FVec F S128 .f32) (main_arg17 : FVec F S128x6 .f32) (main_arg18 : FVec F S6 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x6 .f32) (main_arg18 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x6 .f32) (main_arg18 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x3 .f32) (main_arg1 : IVec S2x625000 32) (main_arg2 : IVec S2x625000 32) (main_arg3 : FVec F S3x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x6 .f32) (main_arg18 : FVec F S6 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x3 : Shape := ⟨2, ![50000, 3]⟩
abbrev S2x625000 : Shape := ⟨2, ![2, 625000]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S1x128 : Shape := ⟨2, ![1, 128]⟩
abbrev S50000x128 : Shape := ⟨2, ![50000, 128]⟩
abbrev S10000x3 : Shape := ⟨2, ![10000, 3]⟩
abbrev S10000x128 : Shape := ⟨2, ![10000, 128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S50000x1 : Shape := ⟨2, ![50000, 1]⟩
abbrev S625000x128 : Shape := ⟨2, ![625000, 128]⟩
abbrev S1x6 : Shape := ⟨2, ![1, 6]⟩
abbrev S50000x6 : Shape := ⟨2, ![50000, 6]⟩
abbrev S10000x6 : Shape := ⟨2, ![10000, 6]⟩

abbrev nBuf : Space → Nat
  | .hbm => 152
  | .vmem => 36
  | .smem => 0
  | _ => 0

abbrev hbmTy0_0 (i : Nat) : BufTy := match i % 128 with
  | 0 => ⟨S50000x3, .f32⟩
  | 1 => ⟨S2x625000, .i32⟩
  | 2 => ⟨S2x625000, .i32⟩
  | 3 => ⟨S3x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x6, .f32⟩
  | 18 => ⟨S6, .f32⟩
  | 19 => ⟨S3x128, .bf16⟩
  | 20 => ⟨S1x128, .f32⟩
  | 21 => ⟨S50000x128, .bf16⟩
  | 22 => ⟨S1x625000, .i32⟩
  | 23 => ⟨S625000, .i32⟩
  | 24 => ⟨S_, .f32⟩
  | 25 => ⟨S625000, .f32⟩
  | 26 => ⟨S_, .f32⟩
  | 27 => ⟨S50000, .f32⟩
  | 28 => ⟨S625000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S1x625000, .i32⟩
  | 38 => ⟨S625000, .i32⟩
  | 39 => ⟨S_, .f32⟩
  | 40 => ⟨S625000, .f32⟩
  | 41 => ⟨S_, .f32⟩
  | 42 => ⟨S50000, .f32⟩
  | 43 => ⟨S625000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S128x128, .bf16⟩
  | 53 => ⟨S128x128, .bf16⟩
  | 54 => ⟨S128x128, .bf16⟩
  | 55 => ⟨S128x128, .bf16⟩
  | 56 => ⟨S1x625000, .i32⟩
  | 57 => ⟨S625000, .i32⟩
  | 58 => ⟨S1x625000, .i32⟩
  | 59 => ⟨S625000, .i32⟩
  | 60 => ⟨S_, .i32⟩
  | 61 => ⟨S625000, .i32⟩
  | 62 => ⟨S625000, .i1⟩
  | 63 => ⟨S_, .i32⟩
  | 64 => ⟨S625000, .i32⟩
  | 65 => ⟨S625000, .i32⟩
  | 66 => ⟨S625000, .i32⟩
  | 67 => ⟨S625000x1, .i32⟩
  | 68 => ⟨S625000x128, .bf16⟩
  | 69 => ⟨S625000x128, .f32⟩
  | 70 => ⟨S_, .f32⟩
  | 71 => ⟨S50000x128, .f32⟩
  | 72 => ⟨S625000x1, .i32⟩
  | 73 => ⟨S50000x128, .f32⟩
  | 74 => ⟨S50000x128, .f32⟩
  | 75 => ⟨S50000x128, .f32⟩
  | 76 => ⟨S50000x128, .bf16⟩
  | 77 => ⟨S1x625000, .i32⟩
  | 78 => ⟨S625000, .i32⟩
  | 79 => ⟨S1x625000, .i32⟩
  | 80 => ⟨S625000, .i32⟩
  | 81 => ⟨S_, .i32⟩
  | 82 => ⟨S625000, .i32⟩
  | 83 => ⟨S625000, .i1⟩
  | 84 => ⟨S_, .i32⟩
  | 85 => ⟨S625000, .i32⟩
  | 86 => ⟨S625000, .i32⟩
  | 87 => ⟨S625000, .i32⟩
  | 88 => ⟨S625000x1, .i32⟩
  | 89 => ⟨S625000x128, .bf16⟩
  | 90 => ⟨S625000x128, .f32⟩
  | 91 => ⟨S_, .f32⟩
  | 92 => ⟨S50000x128, .f32⟩
  | 93 => ⟨S625000x1, .i32⟩
  | 94 => ⟨S50000x128, .f32⟩
  | 95 => ⟨S50000x128, .f32⟩
  | 96 => ⟨S50000x128, .f32⟩
  | 97 => ⟨S50000x128, .bf16⟩
  | 98 => ⟨S1x128, .f32⟩
  | 99 => ⟨S1x128, .f32⟩
  | 100 => ⟨S50000x128, .bf16⟩
  | 101 => ⟨S128x128, .bf16⟩
  | 102 => ⟨S128x128, .bf16⟩
  | 103 => ⟨S128x128, .bf16⟩
  | 104 => ⟨S128x128, .bf16⟩
  | 105 => ⟨S128x6, .bf16⟩
  | 106 => ⟨S1x625000, .i32⟩
  | 107 => ⟨S625000, .i32⟩
  | 108 => ⟨S1x625000, .i32⟩
  | 109 => ⟨S625000, .i32⟩
  | 110 => ⟨S_, .i32⟩
  | 111 => ⟨S625000, .i32⟩
  | 112 => ⟨S625000, .i1⟩
  | 113 => ⟨S_, .i32⟩
  | 114 => ⟨S625000, .i32⟩
  | 115 => ⟨S625000, .i32⟩
  | 116 => ⟨S625000, .i32⟩
  | 117 => ⟨S625000x1, .i32⟩
  | 118 => ⟨S625000x128, .bf16⟩
  | 119 => ⟨S625000x128, .f32⟩
  | 120 => ⟨S_, .f32⟩
  | 121 => ⟨S50000x128, .f32⟩
  | 122 => ⟨S625000x1, .i32⟩
  | 123 => ⟨S50000x128, .f32⟩
  | 124 => ⟨S50000x128, .f32⟩
  | 125 => ⟨S50000x128, .f32⟩
  | 126 => ⟨S50000x128, .bf16⟩
  | 127 => ⟨S1x625000, .i32⟩
  | _ => ⟨S50000x3, .f32⟩

abbrev hbmTy0_1 (i : Nat) : BufTy := match i % 128 with
  | 0 => ⟨S625000, .i32⟩
  | 1 => ⟨S1x625000, .i32⟩
  | 2 => ⟨S625000, .i32⟩
  | 3 => ⟨S_, .i32⟩
  | 4 => ⟨S625000, .i32⟩
  | 5 => ⟨S625000, .i1⟩
  | 6 => ⟨S_, .i32⟩
  | 7 => ⟨S625000, .i32⟩
  | 8 => ⟨S625000, .i32⟩
  | 9 => ⟨S625000, .i32⟩
  | 10 => ⟨S625000x1, .i32⟩
  | 11 => ⟨S625000x128, .bf16⟩
  | 12 => ⟨S625000x128, .f32⟩
  | 13 => ⟨S_, .f32⟩
  | 14 => ⟨S50000x128, .f32⟩
  | 15 => ⟨S625000x1, .i32⟩
  | 16 => ⟨S50000x128, .f32⟩
  | 17 => ⟨S50000x128, .f32⟩
  | 18 => ⟨S50000x128, .f32⟩
  | 19 => ⟨S50000x128, .bf16⟩
  | 20 => ⟨S1x128, .f32⟩
  | 21 => ⟨S1x128, .f32⟩
  | 22 => ⟨S1x6, .f32⟩
  | 23 => ⟨S50000x6, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x128, .bf16⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S10000x128, .bf16⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S128x128, .bf16⟩
  | .local _ .vmem, ⟨17, _⟩ => ⟨S1x128, .f32⟩
  | .local _ .vmem, ⟨18, _⟩ => ⟨S10000x128, .bf16⟩
  | .local _ .vmem, ⟨19, _⟩ => ⟨S10000x128, .bf16⟩
  | .local _ .vmem, ⟨20, _⟩ => ⟨S10000x128, .bf16⟩
  | .local _ .vmem, ⟨21, _⟩ => ⟨S10000x128, .bf16⟩
  | .local _ .vmem, ⟨22, _⟩ => ⟨S10000x128, .bf16⟩
  | .local _ .vmem, ⟨23, _⟩ => ⟨S10000x128, .bf16⟩
  | .local _ .vmem, ⟨24, _⟩ => ⟨S10000x128, .bf16⟩
  | .local _ .vmem, ⟨25, _⟩ => ⟨S10000x128, .bf16⟩
  | .local _ .vmem, ⟨26, _⟩ => ⟨S128x128, .bf16⟩
  | .local _ .vmem, ⟨27, _⟩ => ⟨S128x128, .bf16⟩
  | .local _ .vmem, ⟨28, _⟩ => ⟨S1x128, .f32⟩
  | .local _ .vmem, ⟨29, _⟩ => ⟨S128x128, .bf16⟩
  | .local _ .vmem, ⟨30, _⟩ => ⟨S128x128, .bf16⟩
  | .local _ .vmem, ⟨31, _⟩ => ⟨S1x128, .f32⟩
  | .local _ .vmem, ⟨32, _⟩ => ⟨S128x6, .bf16⟩
  | .local _ .vmem, ⟨33, _⟩ => ⟨S1x6, .f32⟩
  | .local _ .vmem, ⟨34, _⟩ => ⟨S10000x6, .f32⟩
  | .local _ .vmem, ⟨35, _⟩ => ⟨S10000x6, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_14 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_15 : Ref sig .tc := ⟨.hbm, 131, rfl⟩
abbrev main_v95 : Ref sig .tc := ⟨.hbm, 132, rfl⟩
abbrev main_v96 : Ref sig .tc := ⟨.hbm, 133, rfl⟩
abbrev main_c_16 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem11_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x6 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x6 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S10000x6 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  bitsLt_bf16_f32 : FTy.bits .bf16 < FTy.bits .f32
  shapeCasts_S128_S1x128 : S128.ShapeCasts S1x128
  inb_S10000x3_S10000x3_0_0 : ∀ a, (![0, 0] : Fin 2 → Nat) a + S10000x3.size a ≤ S10000x3.size a
  h_S10000x3 : 0 < S10000x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  slices_S2x625000_S1x625000_1_0 : S2x625000.Slices ![1, 0] S1x625000
  shapeCasts_S1x625000_S625000 : S1x625000.ShapeCasts S625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  shapeCasts_S50000_S50000x1 : S50000.ShapeCasts S50000x1
  slices_S2x625000_S1x625000_0_0 : S2x625000.Slices ![0, 0] S1x625000
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S6_S1x6 : S6.ShapeCasts S1x6
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S10000x6 : S1x6.Broadcasts S10000x6
  inb_S10000x6_S10000x6_0_0 : ∀ a, (![0, 0] : Fin 2 → Nat) a + S10000x6.size a ≤ S10000x6.size a
  h_S10000x6 : 0 < S10000x6.numel
  dot_S10000x3_S3x128_S10000x128_1_0_0_1_n_n_wf : DotDims.WF S10000x3 S3x128 S10000x128 [1] [0] [0] [1] [] []
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S10000x128_S128x128_S10000x128_1_0_0_1_n_n_wf : DotDims.WF S10000x128 S128x128 S10000x128 [1] [0] [0] [1] [] []
  dot_S10000x128_S128x6_S10000x6_1_0_0_1_n_n_wf : DotDims.WF S10000x128 S128x6 S10000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S50000x3.size a
  hwx0_0 : ∀ i : grid0.Coords, EltTy.bits .f32 = 32 ∨ (Rect.block (s := S50000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .bf16 = 32 ∨ (Rect.block (s := S3x128) S3x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .bf16 = 32 ∨ (Rect.block (s := S50000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .bf16 = 32 ∨ (Rect.block (s := S50000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x128.size a ≤ S50000x128.size a
  hwx1_9 : ∀ i : grid1.Coords, EltTy.bits .bf16 = 32 ∨ (Rect.block (s := S50000x128) S10000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .bf16 = 32 ∨ (Rect.block (s := S50000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .bf16 = 32 ∨ (Rect.block (s := S50000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x6.size a ≤ S128x6.size a
  hwx2_9 : ∀ i : grid2.Coords, EltTy.bits .bf16 = 32 ∨ (Rect.block (s := S128x6) S128x6.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x6.size a ≤ S1x6.size a
  hwx2_10 : ∀ i : grid2.Coords, EltTy.bits .f32 = 32 ∨ (Rect.block (s := S1x6) S1x6.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S10000x6.size a ≤ S50000x6.size a
  hwx2_11 : ∀ i : grid2.Coords, EltTy.bits .f32 = 32 ∨ (Rect.block (s := S50000x6) S10000x6.size (cc2_transform_11 i) (hinb2_11 i)).WholeWords (EltTy.packing .f32)

variable [Facts₀]

def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x6_S10000x6_1_0_0_1_n_n : DotDims S10000x128 S128x6 S10000x6 where
  lhsContracting := [1]
  rhsContracting := [0]
  lhsNonContracting := [0]
  rhsNonContracting := [1]
  lhsBatch := []
  rhsBatch := []
  wf := dot_S10000x128_S128x6_S10000x6_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v67) S10000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v90) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v109) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v110) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v72) S128x6.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v111) S1x6.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v112) S10000x6.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x3 : Shape := ⟨2, ![50000, 3]⟩
abbrev S2x625000 : Shape := ⟨2, ![2, 625000]⟩
abbrev S3x128 : Shape := ⟨2, ![3, 128]⟩
abbrev S128 : Shape := ⟨1, ![128]⟩
abbrev S128x128 : Shape := ⟨2, ![128, 128]⟩
abbrev S128x6 : Shape := ⟨2, ![128, 6]⟩
abbrev S6 : Shape := ⟨1, ![6]⟩
abbrev S50000x128 : Shape := ⟨2, ![50000, 128]⟩
abbrev S1x128 : Shape := ⟨2, ![1, 128]⟩
abbrev S_ : Shape := ⟨0, ![]⟩
abbrev S1x625000 : Shape := ⟨2, ![1, 625000]⟩
abbrev S625000 : Shape := ⟨1, ![625000]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S50000x6 : Shape := ⟨2, ![50000, 6]⟩
abbrev S1x6 : Shape := ⟨2, ![1, 6]⟩

abbrev nBuf : Space → Nat
  | .hbm => 181
  | .vmem => 0
  | .smem => 0
  | _ => 0

abbrev hbmTy0_0 (i : Nat) : BufTy := match i % 128 with
  | 0 => ⟨S50000x3, .f32⟩
  | 1 => ⟨S2x625000, .i32⟩
  | 2 => ⟨S2x625000, .i32⟩
  | 3 => ⟨S3x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x6, .f32⟩
  | 18 => ⟨S6, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S1x625000, .i32⟩
  | 27 => ⟨S625000, .i32⟩
  | 28 => ⟨S1x625000, .i32⟩
  | 29 => ⟨S625000, .i32⟩
  | 30 => ⟨S_, .i32⟩
  | 31 => ⟨S625000, .i32⟩
  | 32 => ⟨S625000, .i1⟩
  | 33 => ⟨S_, .i32⟩
  | 34 => ⟨S625000, .i32⟩
  | 35 => ⟨S625000, .i32⟩
  | 36 => ⟨S625000, .i32⟩
  | 37 => ⟨S625000x1, .i32⟩
  | 38 => ⟨S625000x128, .f32⟩
  | 39 => ⟨S_, .f32⟩
  | 40 => ⟨S50000x128, .f32⟩
  | 41 => ⟨S625000x1, .i32⟩
  | 42 => ⟨S50000x128, .f32⟩
  | 43 => ⟨S_, .f32⟩
  | 44 => ⟨S625000, .f32⟩
  | 45 => ⟨S_, .f32⟩
  | 46 => ⟨S50000, .f32⟩
  | 47 => ⟨S625000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x625000, .i32⟩
  | 62 => ⟨S625000, .i32⟩
  | 63 => ⟨S1x625000, .i32⟩
  | 64 => ⟨S625000, .i32⟩
  | 65 => ⟨S_, .i32⟩
  | 66 => ⟨S625000, .i32⟩
  | 67 => ⟨S625000, .i1⟩
  | 68 => ⟨S_, .i32⟩
  | 69 => ⟨S625000, .i32⟩
  | 70 => ⟨S625000, .i32⟩
  | 71 => ⟨S625000, .i32⟩
  | 72 => ⟨S625000x1, .i32⟩
  | 73 => ⟨S625000x128, .f32⟩
  | 74 => ⟨S_, .f32⟩
  | 75 => ⟨S50000x128, .f32⟩
  | 76 => ⟨S625000x1, .i32⟩
  | 77 => ⟨S50000x128, .f32⟩
  | 78 => ⟨S_, .f32⟩
  | 79 => ⟨S625000, .f32⟩
  | 80 => ⟨S_, .f32⟩
  | 81 => ⟨S50000, .f32⟩
  | 82 => ⟨S625000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x625000, .i32⟩
  | 104 => ⟨S625000, .i32⟩
  | 105 => ⟨S1x625000, .i32⟩
  | 106 => ⟨S625000, .i32⟩
  | 107 => ⟨S_, .i32⟩
  | 108 => ⟨S625000, .i32⟩
  | 109 => ⟨S625000, .i1⟩
  | 110 => ⟨S_, .i32⟩
  | 111 => ⟨S625000, .i32⟩
  | 112 => ⟨S625000, .i32⟩
  | 113 => ⟨S625000, .i32⟩
  | 114 => ⟨S625000x1, .i32⟩
  | 115 => ⟨S625000x128, .f32⟩
  | 116 => ⟨S_, .f32⟩
  | 117 => ⟨S50000x128, .f32⟩
  | 118 => ⟨S625000x1, .i32⟩
  | 119 => ⟨S50000x128, .f32⟩
  | 120 => ⟨S_, .f32⟩
  | 121 => ⟨S625000, .f32⟩
  | 122 => ⟨S_, .f32⟩
  | 123 => ⟨S50000, .f32⟩
  | 124 => ⟨S625000x1, .i32⟩
  | 125 => ⟨S50000, .f32⟩
  | 126 => ⟨S_, .f32⟩
  | 127 => ⟨S50000, .f32⟩
  | _ => ⟨S50000x3, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S1x625000, .i32⟩
  | 11 => ⟨S625000, .i32⟩
  | 12 => ⟨S1x625000, .i32⟩
  | 13 => ⟨S625000, .i32⟩
  | 14 => ⟨S_, .i32⟩
  | 15 => ⟨S625000, .i32⟩
  | 16 => ⟨S625000, .i1⟩
  | 17 => ⟨S_, .i32⟩
  | 18 => ⟨S625000, .i32⟩
  | 19 => ⟨S625000, .i32⟩
  | 20 => ⟨S625000, .i32⟩
  | 21 => ⟨S625000x1, .i32⟩
  | 22 => ⟨S625000x128, .f32⟩
  | 23 => ⟨S_, .f32⟩
  | 24 => ⟨S50000x128, .f32⟩
  | 25 => ⟨S625000x1, .i32⟩
  | 26 => ⟨S50000x128, .f32⟩
  | 27 => ⟨S_, .f32⟩
  | 28 => ⟨S625000, .f32⟩
  | 29 => ⟨S_, .f32⟩
  | 30 => ⟨S50000, .f32⟩
  | 31 => ⟨S625000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x6, .f32⟩
  | 50 => ⟨S1x6, .f32⟩
  | 51 => ⟨S50000x6, .f32⟩
  | 52 => ⟨S50000x6, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_call1_cst : Ref sig .tc := ⟨.hbm, 100, rfl⟩
abbrev main_call1_v0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_11 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_17 : Ref sig .tc := ⟨.hbm, 142, rfl⟩
abbrev main_v100 : Ref sig .tc := ⟨.hbm, 143, rfl⟩
abbrev main_v101 : Ref sig .tc := ⟨.hbm, 144, rfl⟩
abbrev main_c_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_20 : Ref sig .tc := ⟨.hbm, 155, rfl⟩
abbrev main_v110 : Ref sig .tc := ⟨.hbm, 156, rfl⟩
abbrev main_cst_21 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_22 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_23 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  dot_S50000x3_S3x128_S50000x128_1_0_0_1_n_n_wf : DotDims.WF S50000x3 S3x128 S50000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []
  dot_S50000x128_S128x6_S50000x6_1_0_0_1_n_n_wf : DotDims.WF S50000x128 S128x6 S50000x6 [1] [0] [0] [1] [] []

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x6_S50000x6_1_0_0_1_n_n : DotDims S50000x128 S128x6 S50000x6 where
  lhsContracting := [1]
  rhsContracting := [0]
  lhsNonContracting := [0]
  rhsNonContracting := [1]
  lhsBatch := []
  rhsBatch := []
  wf := dot_S50000x128_S128x6_S50000x6_1_0_0_1_n_n_wf

class Facts : Prop extends Facts₀ where

variable [Facts]
-- ==== Proof.KRun.lean ====
/-
  The idealized kernel's run with its result named: every weakly fair execution of @main terminates, nothing
  faulting, with the result buffer at the last boundary's contents (the fold of the three host stretches and the three
  pipelines' write-backs over the launch memory) and the argument arrays as launched.
-/
import proofs.«169115_j11269994184928_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run, its last thread state read against the final state at the result buffer as well as at the
    arguments. -/
theorem run_out : θ_run defs (onTc (τ := τ) (main (F := F))) ⟨m, fun _ => 0, ρ⟩ (fun r => ∀ c : Dev nD,
      r.2.mem ((c.tc : Thread nD τ).loc main_v112) = W6 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v112 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.KValue

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibMulRecip.lean ====
import Idealize.ShloMosaic.PureOps.Ideal.Laws

/-!
# Multiplying by a reciprocal is dividing, on the extended reals

Division of extended reals, off a zero divisor, IS multiplication by the inverse (`x / y = x · y⁻¹`, with
`(±∞)⁻¹ = 0`). So `a · (1 / d) = a / d` for EVERY extended real `a` — infinite ones included — as soon as `d ≠ 0`:
no finiteness of `a` or `d` is needed. A kernel that hoists `1 / max(deg, 1)` out of a loop and multiplies by it
agrees with a reference that divides by `max(deg, 1)`, because a number clamped below by one is never zero.
-/

noncomputable section

namespace Cert.Lib.MulRecip

open Idealize.ShloMosaic

/-- Multiplying by the reciprocal of a non-zero divisor is dividing by it, for every extended real dividend. -/
theorem mul_recip (a d : EReal) (hd : d ≠ 0) : a * Ideal.div 1 d = Ideal.div a d := by
  unfold Ideal.div
  rw [if_neg hd, if_neg hd, one_mul]

/-- The reciprocal of a non-zero extended real is its inverse. -/
theorem recip_eq_inv (d : EReal) (hd : d ≠ 0) : Ideal.div 1 d = d⁻¹ := by
  unfold Ideal.div
  rw [if_neg hd, one_mul]

/-- A number clamped below by one is not zero. -/
theorem max_one_ne_zero (x : EReal) : max x 1 ≠ 0 := by
  intro h
  have h1 : (1 : EReal) ≤ max x 1 := le_max_right x 1
  rw [h] at h1
  exact absurd h1 (by norm_num)

/-- Hence a sum times the reciprocal of a degree clamped below by one is the sum divided by the clamped degree. -/
theorem mul_recip_clamped (a x : EReal) : a * Ideal.div 1 (max x 1) = Ideal.div a (max x 1) :=
  mul_recip a (max x 1) (max_one_ne_zero x)

end Cert.Lib.MulRecip

end
-- ==== Proof.Words.lean ====
/-
  The float words both programs spell, as the extended reals they denote, and the two scalar laws that join the
  programs: multiplying by the reciprocal of a clamped count is dividing by the count, and multiplying by one half is
  dividing by two — both on every extended real, no finiteness needed.
-/
import Idealize.ShloMosaic.PureOps.Ideal
import Idealize.ShloMosaic.PureOps.Ideal.Laws
import proofs.«169115_j11269994184928_2_alg».proof.Proof.LibMulRecip

noncomputable section

namespace Cert.Words

open Idealize.ShloMosaic

/-- The word of `1.0`. -/
abbrev w1 : EReal := Ideal.ofBits .f32 0x3F800000#32
/-- The word of `0.5`. -/
abbrev wHalf : EReal := Ideal.ofBits .f32 0x3F000000#32
/-- The word of `2.0`. -/
abbrev w2 : EReal := Ideal.ofBits .f32 0x40000000#32

theorem w1_eq : w1 = 1 := by
  simp [Ideal.ofBits, Ideal.ieee, -EReal.coe_mul]; norm_num

theorem wHalf_eq : wHalf = ((1 / 2 : ℝ) : EReal) := by
  simp [Ideal.ofBits, Ideal.ieee, -EReal.coe_mul]; norm_num

theorem w2_eq : w2 = ((2 : ℝ) : EReal) := by
  simp [Ideal.ofBits, Ideal.ieee, -EReal.coe_mul]; norm_num

/-- Scaling a sum by the reciprocal of its clamped count is the mean: `s · (1 / max d 1) = s / max d 1`. -/
theorem mean_law (s d : EReal) : s * Ideal.div w1 (max d w1) = Ideal.div s (max d w1) := by
  rw [w1_eq]; exact Cert.Lib.MulRecip.mul_recip_clamped s d

/-- Halving: `x · 0.5 = x / 2`. -/
theorem half_law (x : EReal) : x * wHalf = Ideal.div x w2 := by
  rw [wHalf_eq, w2_eq, Ideal.div_coe (by norm_num : (2 : ℝ) ≠ 0)]

/-- The two convolutions of a layer summed in the kernel's order and in the reference's. -/
theorem layer_assoc (a b c d e f : EReal) : ((((a + b) + c) + d) + e) + f = ((a + b) + c) + ((d + e) + f) := by
  simp only [add_assoc]

end Cert.Words

end
-- ==== Proof.Layer.lean ====
/-
  One relational layer on the extended reals, row by row.

  `dotRow X W r c` is row r of X against column c of W. `pre` is the sum the kernel body forms for a layer — relation f's
  aggregated rows against its relation weight, the node's own row against its root weight, the bias; the same for
  relation s; all in one left-nested sum, times one half. The reference forms each relation's convolution separately,
  adds the two and divides by two: the same number, by associativity of the sum and because multiplying by one half is
  dividing by two on every extended real.
-/
import Idealize.ShloMosaic.Lib.ValueIdx
import proofs.«169115_j11269994184928_2_alg».proof.Proof.Words

noncomputable section

namespace Cert.Layer

open Idealize.ShloMosaic Idealize.ShloMosaic.ValueIdx Cert.Words
open scoped BigOperators

/-- An a-by-b table of extended reals, indexed as a rank-2 array. -/
abbrev Mat (a b : ℕ) : Type := (⟨2, ![a, b]⟩ : Shape).Idx → EReal

/-- Row `r` of `X` against column `c` of `W`. -/
def dotRow {n k o : ℕ} (X : Mat n k) (W : Mat k o) (r : Fin n) (c : Fin o) : EReal :=
  ∑ j : Fin k, X (ix2 r j) * W (ix2 j c)

/-- A layer before its activation, at row `r`, column `c`: the kernel's order of additions, then one half. -/
def pre {n : ℕ} (Af As H : Mat n 128) (Wrf Wof : Mat 128 128) (Bf : Mat 1 128) (Wrs Wos : Mat 128 128) (Bs : Mat 1 128)
    (r : Fin n) (c : Fin 128) : EReal :=
  (((((dotRow Af Wrf r c + dotRow H Wof r c) + Bf (ix2 (0 : Fin 1) c)) + dotRow As Wrs r c) + dotRow H Wos r c)
    + Bs (ix2 (0 : Fin 1) c)) * wHalf

/-- The reference's order: the two relations' convolutions, each with its bias, added and divided by two. -/
theorem pre_eq {n : ℕ} (Af As H : Mat n 128) (Wrf Wof : Mat 128 128) (Bf : Mat 1 128) (Wrs Wos : Mat 128 128) (Bs : Mat 1 128)
    (r : Fin n) (c : Fin 128) :
    Ideal.div (((dotRow Af Wrf r c + dotRow H Wof r c) + Bf (ix2 (0 : Fin 1) c))
        + ((dotRow As Wrs r c + dotRow H Wos r c) + Bs (ix2 (0 : Fin 1) c))) w2
      = pre Af As H Wrf Wof Bf Wrs Wos Bs r c := by
  unfold pre
  rw [half_law, layer_assoc]

/-- `pre` depends on the three row-blocked operands only through row `r`. -/
theorem pre_congr {n n' : ℕ} (Af As H : Mat n 128) (Af' As' H' : Mat n' 128) (Wrf Wof : Mat 128 128) (Bf : Mat 1 128)
    (Wrs Wos : Mat 128 128) (Bs : Mat 1 128) (r : Fin n) (r' : Fin n') (c : Fin 128)
    (hf : ∀ k : Fin 128, Af (ix2 r k) = Af' (ix2 r' k)) (hs : ∀ k : Fin 128, As (ix2 r k) = As' (ix2 r' k))
    (hh : ∀ k : Fin 128, H (ix2 r k) = H' (ix2 r' k)) :
    pre Af As H Wrf Wof Bf Wrs Wos Bs r c = pre Af' As' H' Wrf Wof Bf Wrs Wos Bs r' c := by
  unfold pre dotRow
  simp only [hf, hs, hh]

end Cert.Layer

end
-- ==== Proof.R0.lean ====
/-
  Region 0 (the embedding layer) as one function of the arrays the region finds.

  Each grid point t writes rows 10000·t … 10000·t + 9999 of the output; row r, column c of the output is
  max (Σ_k X(r,k)·W(k,c) + B(0,c)) 0, where X is the [50000,3] input, W the [3,128] weight (narrowed to bf16 on the
  host, which is the identity on the extended reals) and B the bias as one row. The five blocks tile the array, so
  the whole array ends at that function.
-/
import proofs.«169115_j11269994184928_2_alg».proof.Proof.Gen.KernelIdeal.Frame
import proofs.«169115_j11269994184928_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.SL.Sem
open Idealize.ShloMosaic.Pipeline (Dat Cfg Window)
open scoped BigOperators

namespace Cert.KernelIdeal.KValue

open Cert.KernelIdeal Cert.KernelIdeal.Gen

/-- The zero word of the body's `max · 0`, kept as a word: the reference spells the same word. -/
abbrev zw : EReal := Ideal.ofBits .f32 0x00000000#32

/-- Row `r`, column `c` of the embedding layer. -/
def G0 (X : S50000x3.Idx → EReal) (W : S3x128.Idx → EReal) (B : S1x128.Idx → EReal) : S50000x128.Idx → EReal :=
  fun i => max ((∑ k : Fin 3, X (ix2 (⟨(i 0).val, (i 0).isLt⟩ : Fin 50000) k) * W (ix2 k (⟨(i 1).val, (i 1).isLt⟩ : Fin 128)))
      + B (ix2 (0 : Fin 1) (⟨(i 1).val, (i 1).isLt⟩ : Fin 128))) zw

theorem hz : (![0, 0] : Fin 2 → Nat) = fun _ => 0 := funext fun a => by fin_cases a <;> rfl

theorem d0_l0 (i : _) (q : dot_S10000x3_S3x128_S10000x128_1_0_0_1_n_n.contr.Idx) : (dot_S10000x3_S3x128_S10000x128_1_0_0_1_n_n.lhsIdx i q 0).val = (i 0).val := by
  unfold DotDims.lhsIdx
  rw [dif_neg (by decide), dif_pos (by decide)]
  rfl
theorem d0_l1 (i : _) (q : dot_S10000x3_S3x128_S10000x128_1_0_0_1_n_n.contr.Idx) : (dot_S10000x3_S3x128_S10000x128_1_0_0_1_n_n.lhsIdx i q 1).val = (q ⟨0, by decide⟩).val :=
  dot_S10000x3_S3x128_S10000x128_1_0_0_1_n_n.lhsIdx_val_of_single rfl i q
theorem d0_r0 (i : _) (q : dot_S10000x3_S3x128_S10000x128_1_0_0_1_n_n.contr.Idx) : (dot_S10000x3_S3x128_S10000x128_1_0_0_1_n_n.rhsIdx i q 0).val = (q ⟨0, by decide⟩).val :=
  dot_S10000x3_S3x128_S10000x128_1_0_0_1_n_n.rhsIdx_val_of_single rfl i q
theorem d0_r1 (i : _) (q : dot_S10000x3_S3x128_S10000x128_1_0_0_1_n_n.contr.Idx) : (dot_S10000x3_S3x128_S10000x128_1_0_0_1_n_n.rhsIdx i q 1).val = (i 1).val := by
  unfold DotDims.rhsIdx
  rw [dif_neg (by decide), dif_pos (by decide)]
  rfl

/-- The body's value at entry (p, q) of the block: the product row p by column q, plus the bias at q, clamped below by zero. -/
theorem pay0_apply (x0 : Vec Ideal S10000x3 .f32) (x1 : Vec Ideal S3x128 .bf16) (x2 : Vec Ideal S1x128 .f32)
    (p : Fin 10000) (q : Fin 128) :
    k0_pay1 (F := Ideal) x0 x1 x2 (ix2 p q)
      = max ((∑ k : Fin 3, x0 (ix2 p k) * x1 (ix2 k q)) + x2 (ix2 (0 : Fin 1) q)) zw := by
  unfold k0_pay1
  simp only [truncf_apply, maximumf_apply, addf_apply, broadcast_apply, shapeCast_self,
    Cert.LibPlainMatmul.matmul_zero_ix2 _ none rfl rfl d0_l0 d0_l1 d0_r0 d0_r1, broadcastTo_1b_ab_apply]
  rfl

/-- The body's value at (p, q) is `G0` at row r, column q, of arrays that the blocks read at row r. -/
theorem point0 (X : S50000x3.Idx → EReal) (W : S3x128.Idx → EReal) (B : S1x128.Idx → EReal)
    (x0 : Vec Ideal S10000x3 .f32) (x1 : Vec Ideal S3x128 .bf16) (x2 : Vec Ideal S1x128 .f32)
    (p : Fin 10000) (q : Fin 128) (r : Fin 50000)
    (h0 : ∀ k : Fin 3, x0 (ix2 p k) = X (ix2 r k)) (h1 : ∀ k : Fin 3, x1 (ix2 k q) = W (ix2 k q))
    (h2 : x2 (ix2 (0 : Fin 1) q) = B (ix2 (0 : Fin 1) q)) :
    k0_pay1 (F := Ideal) x0 x1 x2 (ix2 p q) = G0 X W B (ix2 r q) := by
  rw [pay0_apply]
  unfold G0
  simp only [h0, h1, h2]

/-- The printed index maps over the five grid points: the input rows move with the output rows, every other block is block (0, 0). -/
theorem idx0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- Every block row of the output is some point's. -/
theorem onto0 : ∀ q0 : Fin 5, ∃ t : Fin cfg0.N, win0_3.index t = ![q0.val, 0] :=
  (by decide +kernel : ∀ q0 : Fin 5, ∃ t : Fin grid0.N, win0_3.index t = ![q0.val, 0])

variable (V : (c : Dev nD) → (b : Ref sig .tc) → Buf (Elt Ideal) ((c : Thread nD τ).loc b))

/-- What point `t` writes back is block `t` of `G0` of the arrays the region finds. -/
theorem flushed0 (c : Dev nD) (t : Fin cfg0.N) :
    (dat0 (F := Ideal) V c).flushed 3 t
      = ((cfg0.win 3).blk t).view.read (Elt Ideal) (G0 (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S10000x3) hz, View.ld_unit_zero (S := S3x128) hz, View.ld_unit_zero (S := S1x128) hz]
  obtain ⟨e0, e1, e2, e3, e4, e5, e6, e7⟩ := idx0 t
  funext j
  obtain ⟨p, q, rfl⟩ : ∃ (p : Fin 10000) (q : Fin 128), j = ix2 p q := ⟨j 0, j 1, eq_ix2 j⟩
  have hp : p.val < 10000 := p.isLt
  have hr : ((cfg0.win 3).blk t).view.emb (ix2 p q) = ix2 (⟨win0_3.index t (0 : Fin 2) * 10000 + p.val, by omega⟩ : Fin 50000) q := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 128 + 1 * q.val = q.val; omega
  have h0 : ∀ k : Fin 3, ((cfg0.win 0).blk t).view.emb (ix2 p k) = ix2 (⟨win0_3.index t (0 : Fin 2) * 10000 + p.val, by omega⟩ : Fin 50000) k := by
    intro k; funext a; apply Fin.ext
    match a with
    | ⟨0, _⟩ => show win0_0.index t (0 : Fin 2) * 10000 + 1 * p.val = win0_3.index t (0 : Fin 2) * 10000 + p.val; omega
    | ⟨1, _⟩ => show win0_0.index t (1 : Fin 2) * 3 + 1 * k.val = k.val; omega
  have h1 : ∀ k : Fin 3, ((cfg0.win 1).blk t).view.emb (ix2 k q) = ix2 k q := by
    intro k; funext a; apply Fin.ext
    match a with
    | ⟨0, _⟩ => show win0_1.index t (0 : Fin 2) * 3 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  refine Eq.trans ?_ (congrArg (G0 (V c main_arg0) (V c main_v0) (V c main_v1)) hr).symm
  refine point0 (V c main_arg0) (V c main_v0) (V c main_v1) (iblk0 V c 0 t) (iblk0 V c 1 t) (iblk0 V c 2 t) p q _ (fun k => ?_) (fun k => ?_) ?_
  · exact congrArg (V c main_arg0) (h0 k)
  · exact congrArg (V c main_v0) (h1 k)
  · exact congrArg (V c main_v1) h2

/-- An index of the output array is in point `t`'s block iff each coordinate is in the block's range. -/
theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v2).slice (win0_3.rect t)).set ↔ _
  rw [View.set_slice_whole, Rect.mem_set_unit]
  exact Iff.rfl

/-- The five blocks of 10000 rows tile the array. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The embedding layer's array after region 0, whatever the region's entry contents are. -/
theorem final0 (c : Dev nD) :
    (dat0 (F := Ideal) V c).arrAt 3 cfg0.N = G0 (V c main_arg0) (V c main_v0) (V c main_v1) :=
  (dat0 V c).arrAt_eq_of_cover 3 _ (fun t _ => flushed0 V c t) cover0

end Cert.KernelIdeal.KValue

end
-- ==== Proof.R1.lean ====
/-
  Region 1 (the first relational layer) as one function of the arrays the region finds.

  Each grid point t writes rows 10000·t … 10000·t + 9999 of the output. Row r, column c of the output is
  max (pre r c) 0, where `pre` is the layer's halved sum of the two relations' convolutions (aggregated rows against the
  relation weight, own rows against the root weight, the bias). The three row-blocked operands are read at the output's
  rows; the weights and biases are whole at every point. The five blocks tile the array.
-/
import proofs.«169115_j11269994184928_2_alg».proof.Proof.Gen.KernelIdeal.Frame
import proofs.«169115_j11269994184928_2_alg».proof.Proof.LibPlainMatmul
import proofs.«169115_j11269994184928_2_alg».proof.Proof.Layer
import proofs.«169115_j11269994184928_2_alg».proof.Proof.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.SL.Sem
open Idealize.ShloMosaic.Pipeline (Dat Cfg Window)
open scoped BigOperators

namespace Cert.KernelIdeal.KValue

open Cert.KernelIdeal Cert.KernelIdeal.Gen Cert.Layer

/-- Row `r`, column `c` of the first relational layer: the halved sum, clamped below by zero. -/
def G1 (Af As H : S50000x128.Idx → EReal) (Wrf Wof : S128x128.Idx → EReal) (Bf : S1x128.Idx → EReal)
    (Wrs Wos : S128x128.Idx → EReal) (Bs : S1x128.Idx → EReal) : S50000x128.Idx → EReal :=
  fun i => max (pre Af As H Wrf Wof Bf Wrs Wos Bs (⟨(i 0).val, (i 0).isLt⟩ : Fin 50000) (⟨(i 1).val, (i 1).isLt⟩ : Fin 128)) zw

theorem d1_l0 (i : _) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (by decide), dif_pos (by decide)]
  rfl
theorem d1_l1 (i : _) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem d1_r0 (i : _) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem d1_r1 (i : _) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (by decide), dif_pos (by decide)]
  rfl

/-- The body's value at entry (p, q) of the block. -/
theorem pay1_apply (x0 x1 x2 : Vec Ideal S10000x128 .bf16) (x3 x4 : Vec Ideal S128x128 .bf16) (x5 : Vec Ideal S1x128 .f32)
    (x6 x7 : Vec Ideal S128x128 .bf16) (x8 : Vec Ideal S1x128 .f32) (p : Fin 10000) (q : Fin 128) :
    k1_pay1 (F := Ideal) x0 x1 x2 x3 x4 x5 x6 x7 x8 (ix2 p q) = max (pre x0 x1 x2 x3 x4 x5 x6 x7 x8 p q) zw := by
  unfold k1_pay1
  simp only [truncf_apply, maximumf_apply, mulf_apply, addf_apply, broadcast_apply, shapeCast_self,
    Cert.LibPlainMatmul.matmul_zero_ix2 _ none rfl rfl d1_l0 d1_l1 d1_r0 d1_r1, broadcastTo_1b_ab_apply]
  rfl

/-- The body's value at (p, q) is `G1` at row r, column q, of arrays whose rows r the three row blocks hold at p. -/
theorem point1 (Af As H : S50000x128.Idx → EReal) (Wrf Wof : S128x128.Idx → EReal) (Bf : S1x128.Idx → EReal)
    (Wrs Wos : S128x128.Idx → EReal) (Bs : S1x128.Idx → EReal)
    (x0 x1 x2 : Vec Ideal S10000x128 .bf16) (p : Fin 10000) (q : Fin 128) (r : Fin 50000)
    (hf : ∀ k : Fin 128, x0 (ix2 p k) = Af (ix2 r k)) (hs : ∀ k : Fin 128, x1 (ix2 p k) = As (ix2 r k))
    (hh : ∀ k : Fin 128, x2 (ix2 p k) = H (ix2 r k)) :
    k1_pay1 (F := Ideal) x0 x1 x2 Wrf Wof Bf Wrs Wos Bs (ix2 p q) = G1 Af As H Wrf Wof Bf Wrs Wos Bs (ix2 r q) := by
  rw [pay1_apply]
  unfold G1
  rw [pre_congr x0 x1 x2 Af As H Wrf Wof Bf Wrs Wos Bs p r q hf hs hh]

theorem idxrow1_0 : ∀ t : Fin cfg1.N, win1_0.index t (0 : Fin 2) = win1_9.index t (0 : Fin 2) ∧ win1_0.index t (1 : Fin 2) = 0 :=
  (by decide +kernel : ∀ t : Fin grid1.N, _)

theorem idxrow1_1 : ∀ t : Fin cfg1.N, win1_1.index t (0 : Fin 2) = win1_9.index t (0 : Fin 2) ∧ win1_1.index t (1 : Fin 2) = 0 :=
  (by decide +kernel : ∀ t : Fin grid1.N, _)

theorem idxrow1_2 : ∀ t : Fin cfg1.N, win1_2.index t (0 : Fin 2) = win1_9.index t (0 : Fin 2) ∧ win1_2.index t (1 : Fin 2) = 0 :=
  (by decide +kernel : ∀ t : Fin grid1.N, _)

theorem idxres1_3 : ∀ t : Fin cfg1.N, win1_3.index t (0 : Fin 2) = 0 ∧ win1_3.index t (1 : Fin 2) = 0 :=
  (by decide +kernel : ∀ t : Fin grid1.N, _)

theorem idxres1_4 : ∀ t : Fin cfg1.N, win1_4.index t (0 : Fin 2) = 0 ∧ win1_4.index t (1 : Fin 2) = 0 :=
  (by decide +kernel : ∀ t : Fin grid1.N, _)

theorem idxres1_5 : ∀ t : Fin cfg1.N, win1_5.index t (0 : Fin 2) = 0 ∧ win1_5.index t (1 : Fin 2) = 0 :=
  (by decide +kernel : ∀ t : Fin grid1.N, _)

theorem idxres1_6 : ∀ t : Fin cfg1.N, win1_6.index t (0 : Fin 2) = 0 ∧ win1_6.index t (1 : Fin 2) = 0 :=
  (by decide +kernel : ∀ t : Fin grid1.N, _)

theorem idxres1_7 : ∀ t : Fin cfg1.N, win1_7.index t (0 : Fin 2) = 0 ∧ win1_7.index t (1 : Fin 2) = 0 :=
  (by decide +kernel : ∀ t : Fin grid1.N, _)

theorem idxres1_8 : ∀ t : Fin cfg1.N, win1_8.index t (0 : Fin 2) = 0 ∧ win1_8.index t (1 : Fin 2) = 0 :=
  (by decide +kernel : ∀ t : Fin grid1.N, _)

theorem idxout1 : ∀ t : Fin cfg1.N, win1_9.index t (1 : Fin 2) = 0 ∧ win1_9.index t (0 : Fin 2) ≤ 4 :=
  (by decide +kernel : ∀ t : Fin grid1.N, _)

/-- Every block row of the output is some point's. -/
theorem onto1 : ∀ q0 : Fin 5, ∃ t : Fin cfg1.N, win1_9.index t = ![q0.val, 0] :=
  (by decide +kernel : ∀ q0 : Fin 5, ∃ t : Fin grid1.N, win1_9.index t = ![q0.val, 0])

variable (V : (c : Dev nD) → (b : Ref sig .tc) → Buf (Elt Ideal) ((c : Thread nD τ).loc b))

theorem row1_0 (c : Dev nD) (t : Fin cfg1.N) (p : Fin 10000) (k : Fin 128) (r : Fin 50000)
    (hr : r.val = win1_9.index t (0 : Fin 2) * 10000 + p.val) :
    iblk1 V c 0 t (ix2 p k) = V c main_v46 (ix2 r k) := by
  obtain ⟨e0, e1⟩ := idxrow1_0 t
  show V c main_v46 (((cfg1.win 0).blk t).view.emb (ix2 p k)) = V c main_v46 (ix2 r k)
  refine congrArg (V c main_v46) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

theorem row1_1 (c : Dev nD) (t : Fin cfg1.N) (p : Fin 10000) (k : Fin 128) (r : Fin 50000)
    (hr : r.val = win1_9.index t (0 : Fin 2) * 10000 + p.val) :
    iblk1 V c 1 t (ix2 p k) = V c main_v64 (ix2 r k) := by
  obtain ⟨e0, e1⟩ := idxrow1_1 t
  show V c main_v64 (((cfg1.win 1).blk t).view.emb (ix2 p k)) = V c main_v64 (ix2 r k)
  refine congrArg (V c main_v64) (funext fun a => Fin.ext ?_)
  match a with
  | ⟨0, _⟩ => show win1_1.index t (0 : Fin 2) * 10000 + 1 * p.val = r.val; omega
  | ⟨1, _⟩ => show win1_1.index t (1 : Fin 2) * 128 + 1 * k.val = k.val; omega

theorem row1_2 (c : Dev nD) (t : Fin cfg1.N) (p : Fin 10000) (k : Fin 128) (r : Fin 50000)
    (hr : r.val = win1_9.index t (0 : Fin 2) * 10000 + p.val) :
    iblk1 V c 2 t (ix2 p k) = V c main_v2 (ix2 r k) := by
  obtain ⟨e0, e1⟩ := idxrow1_2 t
  show V c main_v2 (((cfg1.win 2).blk t).view.emb (ix2 p k)) = V c main_v2 (ix2 r k)
  refine congrArg (V c main_v2) (funext fun a => Fin.ext ?_)
  match a with
  | ⟨0, _⟩ => show win1_2.index t (0 : Fin 2) * 10000 + 1 * p.val = r.val; omega
  | ⟨1, _⟩ => show win1_2.index t (1 : Fin 2) * 128 + 1 * k.val = k.val; omega

theorem res1_3 (c : Dev nD) (t : Fin cfg1.N) : iblk1 V c 3 t = V c main_v25 := by
  obtain ⟨e0, e1⟩ := idxres1_3 t
  funext y
  show V c main_v25 (((cfg1.win 3).blk t).view.emb y) = V c main_v25 y
  refine congrArg (V c main_v25) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem res1_4 (c : Dev nD) (t : Fin cfg1.N) : iblk1 V c 4 t = V c main_v26 := by
  obtain ⟨e0, e1⟩ := idxres1_4 t
  funext y
  show V c main_v26 (((cfg1.win 4).blk t).view.emb y) = V c main_v26 y
  refine congrArg (V c main_v26) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem res1_5 (c : Dev nD) (t : Fin cfg1.N) : iblk1 V c 5 t = V c main_v65 := by
  obtain ⟨e0, e1⟩ := idxres1_5 t
  funext y
  show V c main_v65 (((cfg1.win 5).blk t).view.emb y) = V c main_v65 y
  refine congrArg (V c main_v65) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem res1_6 (c : Dev nD) (t : Fin cfg1.N) : iblk1 V c 6 t = V c main_v27 := by
  obtain ⟨e0, e1⟩ := idxres1_6 t
  funext y
  show V c main_v27 (((cfg1.win 6).blk t).view.emb y) = V c main_v27 y
  refine congrArg (V c main_v27) (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem res1_7 (c : Dev nD) (t : Fin cfg1.N) : iblk1 V c 7 t = V c main_v28 := by
  obtain ⟨e0, e1⟩ := idxres1_7 t
  funext y
  show V c main_v28 (((cfg1.win 7).blk t).view.emb y) = V c main_v28 y
  refine congrArg (V c main_v28) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

theorem res1_8 (c : Dev nD) (t : Fin cfg1.N) : iblk1 V c 8 t = V c main_v66 := by
  obtain ⟨e0, e1⟩ := idxres1_8 t
  funext y
  show V c main_v66 (((cfg1.win 8).blk t).view.emb y) = V c main_v66 y
  refine congrArg (V c main_v66) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- What point `t` writes back is block `t` of `G1` of the arrays the region finds. -/
theorem flushed1 (c : Dev nD) (t : Fin cfg1.N) :
    (dat1 (F := Ideal) V c).flushed 9 t
      = ((cfg1.win 9).blk t).view.read (Elt Ideal) (G1 (V c main_v46) (V c main_v64) (V c main_v2) (V c main_v25) (V c main_v26)
          (V c main_v65) (V c main_v27) (V c main_v28) (V c main_v66)) := by
  show (cfg1.win 9).cut (grid1.coords t) ((dat1 V c).after 9 t) = _
  rw [after1_9]
  unfold out1_9
  rw [View.canon_unit_zero hz]
  simp only [View.ld_unit_zero (S := S10000x128) hz, View.ld_unit_zero (S := S128x128) hz, View.ld_unit_zero (S := S1x128) hz]
  rw [res1_3 V c t, res1_4 V c t, res1_5 V c t, res1_6 V c t, res1_7 V c t, res1_8 V c t]
  obtain ⟨e0, e1⟩ := idxout1 t
  funext j
  obtain ⟨p, q, rfl⟩ : ∃ (p : Fin 10000) (q : Fin 128), j = ix2 p q := ⟨j 0, j 1, eq_ix2 j⟩
  have hp : p.val < 10000 := p.isLt
  have hr : ((cfg1.win 9).blk t).view.emb (ix2 p q) = ix2 (⟨win1_9.index t (0 : Fin 2) * 10000 + p.val, by omega⟩ : Fin 50000) q := by
    funext a; apply Fin.ext
    match a with
    | ⟨0, _⟩ => show win1_9.index t (0 : Fin 2) * 10000 + 1 * p.val = win1_9.index t (0 : Fin 2) * 10000 + p.val; omega
    | ⟨1, _⟩ => show win1_9.index t (1 : Fin 2) * 128 + 1 * q.val = q.val; omega
  refine Eq.trans ?_ (congrArg (G1 (V c main_v46) (V c main_v64) (V c main_v2) (V c main_v25) (V c main_v26)
          (V c main_v65) (V c main_v27) (V c main_v28) (V c main_v66)) hr).symm
  exact point1 (V c main_v46) (V c main_v64) (V c main_v2) (V c main_v25) (V c main_v26) (V c main_v65) (V c main_v27) (V c main_v28) (V c main_v66)
    (iblk1 V c 0 t) (iblk1 V c 1 t) (iblk1 V c 2 t) p q _
    (fun k => row1_0 V c t p k _ rfl) (fun k => row1_1 V c t p k _ rfl) (fun k => row1_2 V c t p k _ rfl)

/-- An index of the output array is in point `t`'s block iff each coordinate is in the block's range. -/
theorem mem_blk1 (t : Fin cfg1.N) (i : S50000x128.Idx) :
    i ∈ ((cfg1.win 9).blk t).view.set ↔ ∀ a : Fin 2, win1_9.index t a * S10000x128.size a ≤ (i a).val ∧ (i a).val < win1_9.index t a * S10000x128.size a + S10000x128.size a := by
  show i ∈ ((View.whole main_v67).slice (win1_9.rect t)).set ↔ _
  rw [View.set_slice_whole, Rect.mem_set_unit]
  exact Iff.rfl

/-- The five blocks of 10000 rows tile the array. -/
theorem cover1 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := onto1 ⟨(i 0).val / 10000, by omega⟩
  have q0 : win1_9.index t (0 : Fin 2) = (i 0).val / 10000 := congrFun ht 0
  have q1 : win1_9.index t (1 : Fin 2) = 0 := congrFun ht 1
  refine ⟨t, flush1_9 t, ?_⟩
  rw [mem_blk1]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 128 ≤ (i 1).val ∧ (i 1).val < win1_9.index t (1 : Fin 2) * 128 + 128; omega

/-- The first relational layer's array after region 1, whatever the region's entry contents are. -/
theorem final1 (c : Dev nD) :
    (dat1 (F := Ideal) V c).arrAt 9 cfg1.N = G1 (V c main_v46) (V c main_v64) (V c main_v2) (V c main_v25) (V c main_v26)
      (V c main_v65) (V c main_v27) (V c main_v28) (V c main_v66) :=
  (dat1 V c).arrAt_eq_of_cover 9 _ (fun t _ => flushed1 V c t) cover1

end Cert.KernelIdeal.KValue

end
-- ==== Proof.R2.lean ====
/-
  Region 2 (the second relational layer fused with the output projection) as one function of the arrays the region finds.

  Each grid point t writes rows 10000·t … 10000·t + 9999 of the [50000, 6] output. Row r, column c is
  Σ_j pre(r, j) · OW(j, c) + OB(0, c): the layer's halved sum `pre` (no activation), projected by the [128, 6] output
  weight, plus the output bias. The three row-blocked operands are read at the output's rows; weights and biases are
  whole at every point. The five blocks tile the array.
-/
import proofs.«169115_j11269994184928_2_alg».proof.Proof.Gen.KernelIdeal.Frame
import proofs.«169115_j11269994184928_2_alg».proof.Proof.LibPlainMatmul
import proofs.«169115_j11269994184928_2_alg».proof.Proof.Layer
import proofs.«169115_j11269994184928_2_alg».proof.Proof.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.SL.Sem
open Idealize.ShloMosaic.Pipeline (Dat Cfg Window)
open scoped BigOperators

namespace Cert.KernelIdeal.KValue

open Cert.KernelIdeal Cert.KernelIdeal.Gen Cert.Layer

/-- Row `r`, column `c` of the logits. -/
def G2 (Af As H : S50000x128.Idx → EReal) (Wrf Wof : S128x128.Idx → EReal) (Bf : S1x128.Idx → EReal)
    (Wrs Wos : S128x128.Idx → EReal) (Bs : S1x128.Idx → EReal) (OW : S128x6.Idx → EReal) (OB : S1x6.Idx → EReal) :
    S50000x6.Idx → EReal :=
  fun i => (∑ j : Fin 128, pre Af As H Wrf Wof Bf Wrs Wos Bs (⟨(i 0).val, (i 0).isLt⟩ : Fin 50000) j
      * OW (ix2 j (⟨(i 1).val, (i 1).isLt⟩ : Fin 6))) + OB (ix2 (0 : Fin 1) (⟨(i 1).val, (i 1).isLt⟩ : Fin 6))

theorem d2a_l0 (i : _) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (by decide), dif_pos (by decide)]
  rfl
theorem d2a_l1 (i : _) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem d2a_r0 (i : _) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem d2a_r1 (i : _) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (by decide), dif_pos (by decide)]
  rfl

theorem d2b_l0 (i : _) (q : dot_S10000x128_S128x6_S10000x6_1_0_0_1_n_n.contr.Idx) : (dot_S10000x128_S128x6_S10000x6_1_0_0_1_n_n.lhsIdx i q 0).val = (i 0).val := by
  unfold DotDims.lhsIdx
  rw [dif_neg (by decide), dif_pos (by decide)]
  rfl
theorem d2b_l1 (i : _) (q : dot_S10000x128_S128x6_S10000x6_1_0_0_1_n_n.contr.Idx) : (dot_S10000x128_S128x6_S10000x6_1_0_0_1_n_n.lhsIdx i q 1).val = (q ⟨0, by decide⟩).val :=
  dot_S10000x128_S128x6_S10000x6_1_0_0_1_n_n.lhsIdx_val_of_single rfl i q
theorem d2b_r0 (i : _) (q : dot_S10000x128_S128x6_S10000x6_1_0_0_1_n_n.contr.Idx) : (dot_S10000x128_S128x6_S10000x6_1_0_0_1_n_n.rhsIdx i q 0).val = (q ⟨0, by decide⟩).val :=
  dot_S10000x128_S128x6_S10000x6_1_0_0_1_n_n.rhsIdx_val_of_single rfl i q
theorem d2b_r1 (i : _) (q : dot_S10000x128_S128x6_S10000x6_1_0_0_1_n_n.contr.Idx) : (dot_S10000x128_S128x6_S10000x6_1_0_0_1_n_n.rhsIdx i q 1).val = (i 1).val := by
  unfold DotDims.rhsIdx
  rw [dif_neg (by decide), dif_pos (by decide)]
  rfl

/-- The layer part of the body at entry (p, j) of the block: the halved sum, no activation. -/
theorem pay2pre_apply (x0 x1 x2 : Vec Ideal S10000x128 .bf16) (x3 x4 : Vec Ideal S128x128 .bf16) (x5 : Vec Ideal S1x128 .f32)
    (x6 x7 : Vec Ideal S128x128 .bf16) (x8 : Vec Ideal S1x128 .f32) (p : Fin 10000) (j : Fin 128) :
    k2_pay2 (F := Ideal) x0 x1 x2 x3 x4 x5 x6 x7 x8 (ix2 p j) = pre x0 x1 x2 x3 x4 x5 x6 x7 x8 p j := by
  unfold k2_pay2
  simp only [truncf_apply, mulf_apply, addf_apply, broadcast_apply, shapeCast_self,
    Cert.LibPlainMatmul.matmul_zero_ix2 _ none rfl rfl d2a_l0 d2a_l1 d2a_r0 d2a_r1, broadcastTo_1b_ab_apply]
  rfl

/-- The body's value at entry (p, q) of the block: the layer's row p projected on column q, plus the output bias. -/
theorem pay2_apply (x0 x1 x2 : Vec Ideal S10000x128 .bf16) (x3 x4 : Vec Ideal S128x128 .bf16) (x5 : Vec Ideal S1x128 .f32)
    (x6 x7 : Vec Ideal S128x128 .bf16) (x8 : Vec Ideal S1x128 .f32) (x9 : Vec Ideal S128x6 .bf16) (x10 : Vec Ideal S1x6 .f32)
    (p : Fin 10000) (q : Fin 6) :
    k2_pay1 (F := Ideal) (k2_pay2 x0 x1 x2 x3 x4 x5 x6 x7 x8) (k2_pay3 x9) x10 (ix2 p q)
      = (∑ j : Fin 128, pre x0 x1 x2 x3 x4 x5 x6 x7 x8 p j * x9 (ix2 j q)) + x10 (ix2 (0 : Fin 1) q) := by
  unfold k2_pay1 k2_pay3
  simp only [addf_apply, shapeCast_self,
    Cert.LibPlainMatmul.matmul_zero_ix2 _ none rfl rfl d2b_l0 d2b_l1 d2b_r0 d2b_r1, broadcastTo_1b_ab_apply, pay2pre_apply]

/-- The body's value at (p, q) is `G2` at row r, column q, of arrays whose rows r the three row blocks hold at p. -/
theorem point2 (Af As H : S50000x128.Idx → EReal) (Wrf Wof : S128x128.Idx → EReal) (Bf : S1x128.Idx → EReal)
    (Wrs Wos : S128x128.Idx → EReal) (Bs : S1x128.Idx → EReal) (OW : S128x6.Idx → EReal) (OB : S1x6.Idx → EReal)
    (x0 x1 x2 : Vec Ideal S10000x128 .bf16) (p : Fin 10000) (q : Fin 6) (r : Fin 50000)
    (hf : ∀ k : Fin 128, x0 (ix2 p k) = Af (ix2 r k)) (hs : ∀ k : Fin 128, x1 (ix2 p k) = As (ix2 r k))
    (hh : ∀ k : Fin 128, x2 (ix2 p k) = H (ix2 r k)) :
    k2_pay1 (F := Ideal) (k2_pay2 x0 x1 x2 Wrf Wof Bf Wrs Wos Bs) (k2_pay3 OW) OB (ix2 p q)
      = G2 Af As H Wrf Wof Bf Wrs Wos Bs OW OB (ix2 r q) := by
  rw [pay2_apply]
  unfold G2
  simp only [pre_congr x0 x1 x2 Af As H Wrf Wof Bf Wrs Wos Bs p r _ hf hs hh]

theorem idxrow2_0 : ∀ t : Fin cfg2.N, win2_0.index t (0 : Fin 2) = win2_11.index t (0 : Fin 2) ∧ win2_0.index t (1 : Fin 2) = 0 :=
  (by decide +kernel : ∀ t : Fin grid2.N, _)

theorem idxrow2_1 : ∀ t : Fin cfg2.N, win2_1.index t (0 : Fin 2) = win2_11.index t (0 : Fin 2) ∧ win2_1.index t (1 : Fin 2) = 0 :=
  (by decide +kernel : ∀ t : Fin grid2.N, _)

theorem idxrow2_2 : ∀ t : Fin cfg2.N, win2_2.index t (0 : Fin 2) = win2_11.index t (0 : Fin 2) ∧ win2_2.index t (1 : Fin 2) = 0 :=
  (by decide +kernel : ∀ t : Fin grid2.N, _)

theorem idxres2_3 : ∀ t : Fin cfg2.N, win2_3.index t (0 : Fin 2) = 0 ∧ win2_3.index t (1 : Fin 2) = 0 :=
  (by decide +kernel : ∀ t : Fin grid2.N, _)

theorem idxres2_4 : ∀ t : Fin cfg2.N, win2_4.index t (0 : Fin 2) = 0 ∧ win2_4.index t (1 : Fin 2) = 0 :=
  (by decide +kernel : ∀ t : Fin grid2.N, _)

theorem idxres2_5 : ∀ t : Fin cfg2.N, win2_5.index t (0 : Fin 2) = 0 ∧ win2_5.index t (1 : Fin 2) = 0 :=
  (by decide +kernel : ∀ t : Fin grid2.N, _)

theorem idxres2_6 : ∀ t : Fin cfg2.N, win2_6.index t (0 : Fin 2) = 0 ∧ win2_6.index t (1 : Fin 2) = 0 :=
  (by decide +kernel : ∀ t : Fin grid2.N, _)

theorem idxres2_7 : ∀ t : Fin cfg2.N, win2_7.index t (0 : Fin 2) = 0 ∧ win2_7.index t (1 : Fin 2) = 0 :=
  (by decide +kernel : ∀ t : Fin grid2.N, _)

theorem idxres2_8 : ∀ t : Fin cfg2.N, win2_8.index t (0 : Fin 2) = 0 ∧ win2_8.index t (1 : Fin 2) = 0 :=
  (by decide +kernel : ∀ t : Fin grid2.N, _)

theorem idxres2_9 : ∀ t : Fin cfg2.N, win2_9.index t (0 : Fin 2) = 0 ∧ win2_9.index t (1 : Fin 2) = 0 :=
  (by decide +kernel : ∀ t : Fin grid2.N, _)

theorem idxres2_10 : ∀ t : Fin cfg2.N, win2_10.index t (0 : Fin 2) = 0 ∧ win2_10.index t (1 : Fin 2) = 0 :=
  (by decide +kernel : ∀ t : Fin grid2.N, _)

theorem idxout2 : ∀ t : Fin cfg2.N, win2_11.index t (1 : Fin 2) = 0 ∧ win2_11.index t (0 : Fin 2) ≤ 4 :=
  (by decide +kernel : ∀ t : Fin grid2.N, _)

/-- Every block row of the output is some point's. -/
theorem onto2 : ∀ q0 : Fin 5, ∃ t : Fin cfg2.N, win2_11.index t = ![q0.val, 0] :=
  (by decide +kernel : ∀ q0 : Fin 5, ∃ t : Fin grid2.N, win2_11.index t = ![q0.val, 0])

variable (V : (c : Dev nD) → (b : Ref sig .tc) → Buf (Elt Ideal) ((c : Thread nD τ).loc b))

theorem row2_0 (c : Dev nD) (t : Fin cfg2.N) (p : Fin 10000) (k : Fin 128) (r : Fin 50000)
    (hr : r.val = win2_11.index t (0 : Fin 2) * 10000 + p.val) :
    iblk2 V c 0 t (ix2 p k) = V c main_v90 (ix2 r k) := by
  obtain ⟨e0, e1⟩ := idxrow2_0 t
  show V c main_v90 (((cfg2.win 0).blk t).view.emb (ix2 p k)) = V c main_v90 (ix2 r k)
  refine congrArg (V c main_v90) (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

theorem row2_1 (c : Dev nD) (t : Fin cfg2.N) (p : Fin 10000) (k : Fin 128) (r : Fin 50000)
    (hr : r.val = win2_11.index t (0 : Fin 2) * 10000 + p.val) :
    iblk2 V c 1 t (ix2 p k) = V c main_v108 (ix2 r k) := by
  obtain ⟨e0, e1⟩ := idxrow2_1 t
  show V c main_v108 (((cfg2.win 1).blk t).view.emb (ix2 p k)) = V c main_v108 (ix2 r k)
  refine congrArg (V c main_v108) (funext fun a => Fin.ext ?_)
  match a with
  | ⟨0, _⟩ => show win2_1.index t (0 : Fin 2) * 10000 + 1 * p.val = r.val; omega
  | ⟨1, _⟩ => show win2_1.index t (1 : Fin 2) * 128 + 1 * k.val = k.val; omega

theorem row2_2 (c : Dev nD) (t : Fin cfg2.N) (p : Fin 10000) (k : Fin 128) (r : Fin 50000)
    (hr : r.val = win2_11.index t (0 : Fin 2) * 10000 + p.val) :
    iblk2 V c 2 t (ix2 p k) = V c main_v67 (ix2 r k) := by
  obtain ⟨e0, e1⟩ := idxrow2_2 t
  show V c main_v67 (((cfg2.win 2).blk t).view.emb (ix2 p k)) = V c main_v67 (ix2 r k)
  refine congrArg (V c main_v67) (funext fun a => Fin.ext ?_)
  match a with
  | ⟨0, _⟩ => show win2_2.index t (0 : Fin 2) * 10000 + 1 * p.val = r.val; omega
  | ⟨1, _⟩ => show win2_2.index t (1 : Fin 2) * 128 + 1 * k.val = k.val; omega

theorem res2_3 (c : Dev nD) (t : Fin cfg2.N) : iblk2 V c 3 t = V c main_v68 := by
  obtain ⟨e0, e1⟩ := idxres2_3 t
  funext y
  show V c main_v68 (((cfg2.win 3).blk t).view.emb y) = V c main_v68 y
  refine congrArg (V c main_v68) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem res2_4 (c : Dev nD) (t : Fin cfg2.N) : iblk2 V c 4 t = V c main_v69 := by
  obtain ⟨e0, e1⟩ := idxres2_4 t
  funext y
  show V c main_v69 (((cfg2.win 4).blk t).view.emb y) = V c main_v69 y
  refine congrArg (V c main_v69) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem res2_5 (c : Dev nD) (t : Fin cfg2.N) : iblk2 V c 5 t = V c main_v109 := by
  obtain ⟨e0, e1⟩ := idxres2_5 t
  funext y
  show V c main_v109 (((cfg2.win 5).blk t).view.emb y) = V c main_v109 y
  refine congrArg (V c main_v109) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

theorem res2_6 (c : Dev nD) (t : Fin cfg2.N) : iblk2 V c 6 t = V c main_v70 := by
  obtain ⟨e0, e1⟩ := idxres2_6 t
  funext y
  show V c main_v70 (((cfg2.win 6).blk t).view.emb y) = V c main_v70 y
  refine congrArg (V c main_v70) (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega

theorem res2_7 (c : Dev nD) (t : Fin cfg2.N) : iblk2 V c 7 t = V c main_v71 := by
  obtain ⟨e0, e1⟩ := idxres2_7 t
  funext y
  show V c main_v71 (((cfg2.win 7).blk t).view.emb y) = V c main_v71 y
  refine congrArg (V c main_v71) (funext fun a => Fin.ext ?_)
  match a with
  | ⟨0, _⟩ => show win2_7.index t (0 : Fin 2) * 128 + 1 * (y 0).val = (y 0).val; omega
  | ⟨1, _⟩ => show win2_7.index t (1 : Fin 2) * 128 + 1 * (y 1).val = (y 1).val; omega

theorem res2_8 (c : Dev nD) (t : Fin cfg2.N) : iblk2 V c 8 t = V c main_v110 := by
  obtain ⟨e0, e1⟩ := idxres2_8 t
  funext y
  show V c main_v110 (((cfg2.win 8).blk t).view.emb y) = V c main_v110 y
  refine congrArg (V c main_v110) (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

theorem res2_9 (c : Dev nD) (t : Fin cfg2.N) : iblk2 V c 9 t = V c main_v72 := by
  obtain ⟨e0, e1⟩ := idxres2_9 t
  funext y
  show V c main_v72 (((cfg2.win 9).blk t).view.emb y) = V c main_v72 y
  refine congrArg (V c main_v72) (funext fun a => Fin.ext ?_)
  match a with
  | ⟨0, _⟩ => show win2_9.index t (0 : Fin 2) * 128 + 1 * (y 0).val = (y 0).val; omega
  | ⟨1, _⟩ => show win2_9.index t (1 : Fin 2) * 6 + 1 * (y 1).val = (y 1).val; omega

theorem res2_10 (c : Dev nD) (t : Fin cfg2.N) : iblk2 V c 10 t = V c main_v111 := by
  obtain ⟨e0, e1⟩ := idxres2_10 t
  funext y
  show V c main_v111 (((cfg2.win 10).blk t).view.emb y) = V c main_v111 y
  refine congrArg (V c main_v111) (funext fun a => Fin.ext ?_)
  match a with
  | ⟨0, _⟩ => show win2_10.index t (0 : Fin 2) * 1 + 1 * (y 0).val = (y 0).val; omega
  | ⟨1, _⟩ => show win2_10.index t (1 : Fin 2) * 6 + 1 * (y 1).val = (y 1).val; omega

/-- What point `t` writes back is block `t` of `G2` of the arrays the region finds. -/
theorem flushed2 (c : Dev nD) (t : Fin cfg2.N) :
    (dat2 (F := Ideal) V c).flushed 11 t
      = ((cfg2.win 11).blk t).view.read (Elt Ideal) (G2 (V c main_v90) (V c main_v108) (V c main_v67) (V c main_v68) (V c main_v69) (V c main_v109) (V c main_v70) (V c main_v71) (V c main_v110) (V c main_v72) (V c main_v111)) := by
  show (cfg2.win 11).cut (grid2.coords t) ((dat2 V c).after 11 t) = _
  rw [after2_11]
  unfold out2_11
  rw [View.canon_unit_zero hz]
  simp only [View.ld_unit_zero (S := S10000x128) hz, View.ld_unit_zero (S := S128x128) hz, View.ld_unit_zero (S := S1x128) hz,
    View.ld_unit_zero (S := S128x6) hz, View.ld_unit_zero (S := S1x6) hz]
  rw [res2_3 V c t, res2_4 V c t, res2_5 V c t, res2_6 V c t, res2_7 V c t, res2_8 V c t, res2_9 V c t, res2_10 V c t]
  obtain ⟨e0, e1⟩ := idxout2 t
  funext j
  obtain ⟨p, q, rfl⟩ : ∃ (p : Fin 10000) (q : Fin 6), j = ix2 p q := ⟨j 0, j 1, eq_ix2 j⟩
  have hp : p.val < 10000 := p.isLt
  have hr : ((cfg2.win 11).blk t).view.emb (ix2 p q) = ix2 (⟨win2_11.index t (0 : Fin 2) * 10000 + p.val, by omega⟩ : Fin 50000) q := by
    funext a; apply Fin.ext
    match a with
    | ⟨0, _⟩ => show win2_11.index t (0 : Fin 2) * 10000 + 1 * p.val = win2_11.index t (0 : Fin 2) * 10000 + p.val; omega
    | ⟨1, _⟩ => show win2_11.index t (1 : Fin 2) * 6 + 1 * q.val = q.val; omega
  refine Eq.trans ?_ (congrArg (G2 (V c main_v90) (V c main_v108) (V c main_v67) (V c main_v68) (V c main_v69) (V c main_v109) (V c main_v70) (V c main_v71) (V c main_v110) (V c main_v72) (V c main_v111)) hr).symm
  exact point2 (V c main_v90) (V c main_v108) (V c main_v67) (V c main_v68) (V c main_v69) (V c main_v109) (V c main_v70) (V c main_v71) (V c main_v110) (V c main_v72) (V c main_v111)
    (iblk2 V c 0 t) (iblk2 V c 1 t) (iblk2 V c 2 t) p q _
    (fun k => row2_0 V c t p k _ rfl) (fun k => row2_1 V c t p k _ rfl) (fun k => row2_2 V c t p k _ rfl)

/-- An index of the output array is in point `t`'s block iff each coordinate is in the block's range. -/
theorem mem_blk2 (t : Fin cfg2.N) (i : S50000x6.Idx) :
    i ∈ ((cfg2.win 11).blk t).view.set ↔ ∀ a : Fin 2, win2_11.index t a * S10000x6.size a ≤ (i a).val ∧ (i a).val < win2_11.index t a * S10000x6.size a + S10000x6.size a := by
  show i ∈ ((View.whole main_v112).slice (win2_11.rect t)).set ↔ _
  rw [View.set_slice_whole, Rect.mem_set_unit]
  exact Iff.rfl

/-- The five blocks of 10000 rows tile the array. -/
theorem cover2 (i : S50000x6.Idx) : ∃ t : Fin cfg2.N, (cfg2.win 11).flush t = true ∧ i ∈ ((cfg2.win 11).blk t).view.set := by
  have hi0 : (i 0).val < 50000 := (i 0).isLt
  have hi1 : (i 1).val < 6 := (i 1).isLt
  obtain ⟨t, ht⟩ := onto2 ⟨(i 0).val / 10000, by omega⟩
  have q0 : win2_11.index t (0 : Fin 2) = (i 0).val / 10000 := congrFun ht 0
  have q1 : win2_11.index t (1 : Fin 2) = 0 := congrFun ht 1
  refine ⟨t, flush2_11 t, ?_⟩
  rw [mem_blk2]
  intro a
  match a with
  | ⟨0, _⟩ => show win2_11.index t (0 : Fin 2) * 10000 ≤ (i 0).val ∧ (i 0).val < win2_11.index t (0 : Fin 2) * 10000 + 10000; omega
  | ⟨1, _⟩ => show win2_11.index t (1 : Fin 2) * 6 ≤ (i 1).val ∧ (i 1).val < win2_11.index t (1 : Fin 2) * 6 + 6; omega

/-- The logits array after region 2, whatever the region's entry contents are. -/
theorem final2 (c : Dev nD) :
    (dat2 (F := Ideal) V c).arrAt 11 cfg2.N = G2 (V c main_v90) (V c main_v108) (V c main_v67) (V c main_v68) (V c main_v69) (V c main_v109) (V c main_v70) (V c main_v71) (V c main_v110) (V c main_v72) (V c main_v111) :=
  (dat2 V c).arrAt_eq_of_cover 11 _ (fun t _ => flushed2 V c t) cover2

end Cert.KernelIdeal.KValue

end
-- ==== Proof.KSpec.lean ====
/-
  The idealized kernel's value as a composition of named stages, each a function of the argument arrays.

  `kH0` is the embedding layer. For a table H of node rows and an edge list x (row 0 the sources, row 1 the targets):
  `kSum H x` is the per-target sum of the source rows (a gather of rows at the sources — a negative source wrapped by
  the node count first — scatter-added at the targets into zeros), `kCnt x` the per-target edge count, `kInv x` the
  reciprocal of the count clamped below by one, as a column, and `kAgg H x` the mean: the sums times that column.
  `kH1` is the first relational layer over the means of `kH0` along both edge lists, and `kOut` the second layer over
  the means of `kH1`, fused with the output projection. Changes of float format are the identity here.
-/
import proofs.«169115_j11269994184928_2_alg».proof.Proof.R1
import proofs.«169115_j11269994184928_2_alg».proof.Proof.R2

noncomputable section

namespace Cert.KernelIdeal.KValue

open Cert.KernelIdeal Idealize.ShloMosaic
open Cert.KernelIdeal.Facts₀ Cert.KernelIdeal.Facts

/-- An edge list: two rows of 625000 node numbers. -/
abbrev Edges : Type := (⟨S2x625000, .i32⟩ : BufTy).Contents (Elt Ideal)

/-- The targets, as a column of indices. -/
def kDst (x : Edges) : (⟨S625000x1, .i32⟩ : BufTy).Contents (Elt Ideal) :=
  broadcastInDim S625000x1 ![0] bcast_S625000_S625000x1_0
    (shapeCast S625000 (extractStridedSlice S1x625000 ![1, 0] x slices_S2x625000_S1x625000_1_0) shapeCasts_S1x625000_S625000)

/-- The sources as given. -/
def kSrcRaw (x : Edges) : (⟨S625000, .i32⟩ : BufTy).Contents (Elt Ideal) :=
  shapeCast S625000 (extractStridedSlice S1x625000 ![0, 0] x slices_S2x625000_S1x625000_0_0) shapeCasts_S1x625000_S625000

/-- The sources, a negative one wrapped by the node count, as a column of indices. -/
def kSrc (x : Edges) : (⟨S625000x1, .i32⟩ : BufTy).Contents (Elt Ideal) :=
  broadcastInDim S625000x1 ![0] bcast_S625000_S625000x1_0
    (select (cmpi .slt (kSrcRaw x) (broadcastInDim S625000 ![] bcast_S_S625000 (constantI S_ 32 0#32)))
      (addi (kSrcRaw x) (broadcastInDim S625000 ![] bcast_S_S625000 (constantI S_ 32 50000#32)))
      (kSrcRaw x))

/-- Per target node, the sum of its sources' rows. -/
def kSum (H : Vec Ideal S50000x128 .bf16) (x : Edges) : FVec Ideal S50000x128 .f32 :=
  Host.scatterAdd scatter_S50000x128_S625000x1_S625000x128_1_0_0_1
    (broadcastInDim S50000x128 ![] bcast_S_S50000x128 (constant (F := Ideal) S_ .f32 0x00000000#32)) (kDst x)
    (extf .f32 (Host.gather gather_S50000x128_S625000x1_S625000x128_1_0_n_n_0_1_1128 H (kSrc x)) bitsLt_bf16_f32)

/-- Ones over the nodes. -/
abbrev kOnes : FVec Ideal S50000 .f32 := broadcastInDim S50000 ![] bcast_S_S50000 (constant (F := Ideal) S_ .f32 0x3F800000#32)

/-- Per target node, its number of edges. -/
def kCnt (x : Edges) : FVec Ideal S50000 .f32 :=
  Host.scatterAdd scatter_S50000_S625000x1_S625000_n_0_0_1
    (broadcastInDim S50000 ![] bcast_S_S50000 (constant (F := Ideal) S_ .f32 0x00000000#32)) (kDst x)
    (broadcastInDim S625000 ![] bcast_S_S625000 (constant (F := Ideal) S_ .f32 0x3F800000#32))

/-- The reciprocal of the clamped count, as a column. -/
def kInv (x : Edges) : FVec Ideal S50000x1 .f32 :=
  shapeCast S50000x1 (Host.divf kOnes (maximumf (kCnt x) kOnes)) shapeCasts_S50000_S50000x1

/-- The mean of the sources' rows per target node. -/
def kAgg (H : Vec Ideal S50000x128 .bf16) (x : Edges) : Vec Ideal S50000x128 .bf16 :=
  truncf .bf16 (mulf (kSum H x) (broadcastInDim S50000x128 ![0, 1] bcast_S50000x1_S50000x128_0_1 (kInv x))) bitsLt_bf16_f32

/-- A square weight narrowed to bf16: the same table. -/
abbrev nar (w : FVec Ideal S128x128 .f32) : FVec Ideal S128x128 .bf16 := truncf .bf16 w bitsLt_bf16_f32
/-- A bias as one row. -/
abbrev rowOf (b : FVec Ideal S128 .f32) : FVec Ideal S1x128 .f32 := shapeCast S1x128 b shapeCasts_S128_S1x128

/-- The embedding weight narrowed to bf16: the same table. -/
abbrev narE (w : FVec Ideal S3x128 .f32) : FVec Ideal S3x128 .bf16 := truncf .bf16 w bitsLt_bf16_f32
/-- The output weight narrowed to bf16: the same table. -/
abbrev narO (w : FVec Ideal S128x6 .f32) : FVec Ideal S128x6 .bf16 := truncf .bf16 w bitsLt_bf16_f32
/-- The output bias as one row. -/
abbrev rowOf6 (b : FVec Ideal S6 .f32) : FVec Ideal S1x6 .f32 := shapeCast S1x6 b shapeCasts_S6_S1x6

/-- The embedding layer. -/
def kH0 (x0 : FVec Ideal S50000x3 .f32) (x3 : FVec Ideal S3x128 .f32) (x4 : FVec Ideal S128 .f32) : Vec Ideal S50000x128 .bf16 :=
  G0 x0 (narE x3) (rowOf x4)

/-- The first relational layer. -/
def kH1 (x0 : FVec Ideal S50000x3 .f32) (x1 x2 : Edges) (x3 : FVec Ideal S3x128 .f32) (x4 : FVec Ideal S128 .f32)
    (x5 x6 : FVec Ideal S128x128 .f32) (x7 : FVec Ideal S128 .f32) (x8 x9 : FVec Ideal S128x128 .f32) (x10 : FVec Ideal S128 .f32) :
    Vec Ideal S50000x128 .bf16 :=
  G1 (kAgg (kH0 x0 x3 x4) x1) (kAgg (kH0 x0 x3 x4) x2) (kH0 x0 x3 x4) (nar x5) (nar x6) (rowOf x7) (nar x8) (nar x9) (rowOf x10)

/-- The second relational layer and the output projection. -/
def kOut (x0 : FVec Ideal S50000x3 .f32) (x1 x2 : Edges) (x3 : FVec Ideal S3x128 .f32) (x4 : FVec Ideal S128 .f32)
    (x5 x6 : FVec Ideal S128x128 .f32) (x7 : FVec Ideal S128 .f32) (x8 x9 : FVec Ideal S128x128 .f32) (x10 : FVec Ideal S128 .f32)
    (x11 x12 : FVec Ideal S128x128 .f32) (x13 : FVec Ideal S128 .f32) (x14 x15 : FVec Ideal S128x128 .f32) (x16 : FVec Ideal S128 .f32)
    (x17 : FVec Ideal S128x6 .f32) (x18 : FVec Ideal S6 .f32) : FVec Ideal S50000x6 .f32 :=
  G2 (kAgg (kH1 x0 x1 x2 x3 x4 x5 x6 x7 x8 x9 x10) x1) (kAgg (kH1 x0 x1 x2 x3 x4 x5 x6 x7 x8 x9 x10) x2)
    (kH1 x0 x1 x2 x3 x4 x5 x6 x7 x8 x9 x10) (nar x11) (nar x12) (rowOf x13) (nar x14) (nar x15) (rowOf x16)
    (narO x17) (rowOf6 x18)

end Cert.KernelIdeal.KValue

end
-- ==== Proof.KHost1.lean ====
/-
  The buffers at the first two boundaries of the kernel's @main, read back to the launch memory: after the first host
  stretch (a narrowing of the embedding weight, the embedding bias as one row) every argument is as launched; after
  region 0 the embedding layer's array is `kH0` of the arguments and the arguments are as launched.
-/
import proofs.«169115_j11269994184928_2_alg».proof.Proof.Gen.KernelIdeal.Frame
import proofs.«169115_j11269994184928_2_alg».proof.Proof.KSpec
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W1_arg0 : W1 m ρ c (Proc.devRef .tc main_arg0) = (m ((c : Thread nD τ).loc main_arg0)) := by
  show StableHlo.after hostOps0 (W0 m ρ c) (Proc.devRef .tc main_arg0) = _
  after_results_simp
  <;> rfl

set_option maxHeartbeats 4000000 in
theorem W1_arg1 : W1 m ρ c (Proc.devRef .tc main_arg1) = (m ((c : Thread nD τ).loc main_arg1)) := by
  show StableHlo.after hostOps0 (W0 m ρ c) (Proc.devRef .tc main_arg1) = _
  after_results_simp
  <;> rfl

set_option maxHeartbeats 4000000 in
theorem W1_arg2 : W1 m ρ c (Proc.devRef .tc main_arg2) = (m ((c : Thread nD τ).loc main_arg2)) := by
  show StableHlo.after hostOps0 (W0 m ρ c) (Proc.devRef .tc main_arg2) = _
  after_results_simp
  <;> rfl

set_option maxHeartbeats 4000000 in
theorem W1_arg5 : W1 m ρ c (Proc.devRef .tc main_arg5) = (m ((c : Thread nD τ).loc main_arg5)) := by
  show StableHlo.after hostOps0 (W0 m ρ c) (Proc.devRef .tc main_arg5) = _
  after_results_simp
  <;> rfl

set_option maxHeartbeats 4000000 in
theorem W1_arg6 : W1 m ρ c (Proc.devRef .tc main_arg6) = (m ((c : Thread nD τ).loc main_arg6)) := by
  show StableHlo.after hostOps0 (W0 m ρ c) (Proc.devRef .tc main_arg6) = _
  after_results_simp
  <;> rfl

set_option maxHeartbeats 4000000 in
theorem W1_arg7 : W1 m ρ c (Proc.devRef .tc main_arg7) = (m ((c : Thread nD τ).loc main_arg7)) := by
  show StableHlo.after hostOps0 (W0 m ρ c) (Proc.devRef .tc main_arg7) = _
  after_results_simp
  <;> rfl

set_option maxHeartbeats 4000000 in
theorem W1_arg8 : W1 m ρ c (Proc.devRef .tc main_arg8) = (m ((c : Thread nD τ).loc main_arg8)) := by
  show StableHlo.after hostOps0 (W0 m ρ c) (Proc.devRef .tc main_arg8) = _
  after_results_simp
  <;> rfl

set_option maxHeartbeats 4000000 in
theorem W1_arg9 : W1 m ρ c (Proc.devRef .tc main_arg9) = (m ((c : Thread nD τ).loc main_arg9)) := by
  show StableHlo.after hostOps0 (W0 m ρ c) (Proc.devRef .tc main_arg9) = _
  after_results_simp
  <;> rfl

set_option maxHeartbeats 4000000 in
theorem W1_arg10 : W1 m ρ c (Proc.devRef .tc main_arg10) = (m ((c : Thread nD τ).loc main_arg10)) := by
  show StableHlo.after hostOps0 (W0 m ρ c) (Proc.devRef .tc main_arg10) = _
  after_results_simp
  <;> rfl

set_option maxHeartbeats 4000000 in
theorem W1_arg11 : W1 m ρ c (Proc.devRef .tc main_arg11) = (m ((c : Thread nD τ).loc main_arg11)) := by
  show StableHlo.after hostOps0 (W0 m ρ c) (Proc.devRef .tc main_arg11) = _
  after_results_simp
  <;> rfl

set_option maxHeartbeats 4000000 in
theorem W1_arg12 : W1 m ρ c (Proc.devRef .tc main_arg12) = (m ((c : Thread nD τ).loc main_arg12)) := by
  show StableHlo.after hostOps0 (W0 m ρ c) (Proc.devRef .tc main_arg12) = _
  after_results_simp
  <;> rfl

set_option maxHeartbeats 4000000 in
theorem W1_arg13 : W1 m ρ c (Proc.devRef .tc main_arg13) = (m ((c : Thread nD τ).loc main_arg13)) := by
  show StableHlo.after hostOps0 (W0 m ρ c) (Proc.devRef .tc main_arg13) = _
  after_results_simp
  <;> rfl

set_option maxHeartbeats 4000000 in
theorem W1_arg14 : W1 m ρ c (Proc.devRef .tc main_arg14) = (m ((c : Thread nD τ).loc main_arg14)) := by
  show StableHlo.after hostOps0 (W0 m ρ c) (Proc.devRef .tc main_arg14) = _
  after_results_simp
  <;> rfl

set_option maxHeartbeats 4000000 in
theorem W1_arg15 : W1 m ρ c (Proc.devRef .tc main_arg15) = (m ((c : Thread nD τ).loc main_arg15)) := by
  show StableHlo.after hostOps0 (W0 m ρ c) (Proc.devRef .tc main_arg15) = _
  after_results_simp
  <;> rfl

set_option maxHeartbeats 4000000 in
theorem W1_arg16 : W1 m ρ c (Proc.devRef .tc main_arg16) = (m ((c : Thread nD τ).loc main_arg16)) := by
  show StableHlo.after hostOps0 (W0 m ρ c) (Proc.devRef .tc main_arg16) = _
  after_results_simp
  <;> rfl

set_option maxHeartbeats 4000000 in
theorem W1_arg17 : W1 m ρ c (Proc.devRef .tc main_arg17) = (m ((c : Thread nD τ).loc main_arg17)) := by
  show StableHlo.after hostOps0 (W0 m ρ c) (Proc.devRef .tc main_arg17) = _
  after_results_simp
  <;> rfl

set_option maxHeartbeats 4000000 in
theorem W1_arg18 : W1 m ρ c (Proc.devRef .tc main_arg18) = (m ((c : Thread nD τ).loc main_arg18)) := by
  show StableHlo.after hostOps0 (W0 m ρ c) (Proc.devRef .tc main_arg18) = _
  after_results_simp
  <;> rfl

set_option maxHeartbeats 4000000 in
theorem W1_v0 : W1 m ρ c (Proc.devRef .tc main_v0) = narE (m ((c : Thread nD τ).loc main_arg3)) := by
  show StableHlo.after hostOps0 (W0 m ρ c) (Proc.devRef .tc main_v0) = _
  after_results_simp
  <;> rfl

set_option maxHeartbeats 4000000 in
theorem W1_v1 : W1 m ρ c (Proc.devRef .tc main_v1) = rowOf (m ((c : Thread nD τ).loc main_arg4)) := by
  show StableHlo.after hostOps0 (W0 m ρ c) (Proc.devRef .tc main_v1) = _
  after_results_simp
  <;> rfl

/-- After region 0 the embedding layer's array holds `kH0` of the arguments. -/
theorem W2_v2 : W2 m ρ c (Proc.devRef .tc main_v2) = kH0 (m ((c : Thread nD τ).loc main_arg0)) (m ((c : Thread nD τ).loc main_arg3)) (m ((c : Thread nD τ).loc main_arg4)) := by
  refine (W2_arr m ρ c 3).trans ((final0 (V1 m ρ) c).trans ?_)
  show G0 (W1 m ρ c (Proc.devRef .tc main_arg0)) (W1 m ρ c (Proc.devRef .tc main_v0)) (W1 m ρ c (Proc.devRef .tc main_v1)) = _
  rw [W1_arg0, W1_v0, W1_v1]
  rfl

theorem W2_arg1 : W2 m ρ c (Proc.devRef .tc main_arg1) = (m ((c : Thread nD τ).loc main_arg1)) :=
  (W2_of_ne m ρ c main_arg1 (by decide)).trans (W1_arg1 m ρ c)

theorem W2_arg2 : W2 m ρ c (Proc.devRef .tc main_arg2) = (m ((c : Thread nD τ).loc main_arg2)) :=
  (W2_of_ne m ρ c main_arg2 (by decide)).trans (W1_arg2 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_arg11 : W2 m ρ c (Proc.devRef .tc main_arg11) = (m ((c : Thread nD τ).loc main_arg11)) :=
  (W2_of_ne m ρ c main_arg11 (by decide)).trans (W1_arg11 m ρ c)

theorem W2_arg12 : W2 m ρ c (Proc.devRef .tc main_arg12) = (m ((c : Thread nD τ).loc main_arg12)) :=
  (W2_of_ne m ρ c main_arg12 (by decide)).trans (W1_arg12 m ρ c)

theorem W2_arg13 : W2 m ρ c (Proc.devRef .tc main_arg13) = (m ((c : Thread nD τ).loc main_arg13)) :=
  (W2_of_ne m ρ c main_arg13 (by decide)).trans (W1_arg13 m ρ c)

theorem W2_arg14 : W2 m ρ c (Proc.devRef .tc main_arg14) = (m ((c : Thread nD τ).loc main_arg14)) :=
  (W2_of_ne m ρ c main_arg14 (by decide)).trans (W1_arg14 m ρ c)

theorem W2_arg15 : W2 m ρ c (Proc.devRef .tc main_arg15) = (m ((c : Thread nD τ).loc main_arg15)) :=
  (W2_of_ne m ρ c main_arg15 (by decide)).trans (W1_arg15 m ρ c)

theorem W2_arg16 : W2 m ρ c (Proc.devRef .tc main_arg16) = (m ((c : Thread nD τ).loc main_arg16)) :=
  (W2_of_ne m ρ c main_arg16 (by decide)).trans (W1_arg16 m ρ c)

theorem W2_arg17 : W2 m ρ c (Proc.devRef .tc main_arg17) = (m ((c : Thread nD τ).loc main_arg17)) :=
  (W2_of_ne m ρ c main_arg17 (by decide)).trans (W1_arg17 m ρ c)

theorem W2_arg18 : W2 m ρ c (Proc.devRef .tc main_arg18) = (m ((c : Thread nD τ).loc main_arg18)) :=
  (W2_of_ne m ρ c main_arg18 (by decide)).trans (W1_arg18 m ρ c)

end Cert.KernelIdeal.KValue

end
-- ==== Proof.KHost2a.lean ====
/-
  The second host stretch of the kernel's @main, read at the two mean-aggregated tables, the embedding table and the two
  reciprocal-count columns: each is its named stage of the arguments.
-/
import proofs.«169115_j11269994184928_2_alg».proof.Proof.KHost1
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W3_v46 : W3 m ρ c (Proc.devRef .tc main_v46) = kAgg (kH0 (m ((c : Thread nD τ).loc main_arg0)) (m ((c : Thread nD τ).loc main_arg3)) (m ((c : Thread nD τ).loc main_arg4))) (m ((c : Thread nD τ).loc main_arg1)) := by
  show StableHlo.after hostOps1 (W2 m ρ c) (Proc.devRef .tc main_v46) = _
  after_results_simp
  rw [W2_v2 m ρ c, W2_arg1 m ρ c]
  <;> rfl

set_option maxHeartbeats 4000000 in
theorem W3_v64 : W3 m ρ c (Proc.devRef .tc main_v64) = kAgg (kH0 (m ((c : Thread nD τ).loc main_arg0)) (m ((c : Thread nD τ).loc main_arg3)) (m ((c : Thread nD τ).loc main_arg4))) (m ((c : Thread nD τ).loc main_arg2)) := by
  show StableHlo.after hostOps1 (W2 m ρ c) (Proc.devRef .tc main_v64) = _
  after_results_simp
  rw [W2_v2 m ρ c, W2_arg2 m ρ c]
  <;> rfl

set_option maxHeartbeats 4000000 in
theorem W3_v2 : W3 m ρ c (Proc.devRef .tc main_v2) = (kH0 (m ((c : Thread nD τ).loc main_arg0)) (m ((c : Thread nD τ).loc main_arg3)) (m ((c : Thread nD τ).loc main_arg4))) := by
  show StableHlo.after hostOps1 (W2 m ρ c) (Proc.devRef .tc main_v2) = _
  after_results_simp
  rw [W2_v2 m ρ c]
  <;> rfl

set_option maxHeartbeats 4000000 in
theorem W3_v13 : W3 m ρ c (Proc.devRef .tc main_v13) = kInv (m ((c : Thread nD τ).loc main_arg1)) := by
  show StableHlo.after hostOps1 (W2 m ρ c) (Proc.devRef .tc main_v13) = _
  after_results_simp
  rw [W2_arg1 m ρ c]
  <;> rfl

set_option maxHeartbeats 4000000 in
theorem W3_v24 : W3 m ρ c (Proc.devRef .tc main_v24) = kInv (m ((c : Thread nD τ).loc main_arg2)) := by
  show StableHlo.after hostOps1 (W2 m ρ c) (Proc.devRef .tc main_v24) = _
  after_results_simp
  rw [W2_arg2 m ρ c]
  <;> rfl

end Cert.KernelIdeal.KValue

end
-- ==== Proof.KHost2b.lean ====
/-
  The second host stretch of the kernel's @main, read at the first layer's weights (narrowed: the same tables) and
  biases (each as one row).
-/
import proofs.«169115_j11269994184928_2_alg».proof.Proof.KHost1
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W3_v25 : W3 m ρ c (Proc.devRef .tc main_v25) = nar (m ((c : Thread nD τ).loc main_arg5)) := by
  show StableHlo.after hostOps1 (W2 m ρ c) (Proc.devRef .tc main_v25) = _
  after_results_simp
  rw [W2_arg5 m ρ c]
  <;> rfl

set_option maxHeartbeats 4000000 in
theorem W3_v26 : W3 m ρ c (Proc.devRef .tc main_v26) = nar (m ((c : Thread nD τ).loc main_arg6)) := by
  show StableHlo.after hostOps1 (W2 m ρ c) (Proc.devRef .tc main_v26) = _
  after_results_simp
  rw [W2_arg6 m ρ c]
  <;> rfl

set_option maxHeartbeats 4000000 in
theorem W3_v65 : W3 m ρ c (Proc.devRef .tc main_v65) = rowOf (m ((c : Thread nD τ).loc main_arg7)) := by
  show StableHlo.after hostOps1 (W2 m ρ c) (Proc.devRef .tc main_v65) = _
  after_results_simp
  rw [W2_arg7 m ρ c]
  <;> rfl

set_option maxHeartbeats 4000000 in
theorem W3_v27 : W3 m ρ c (Proc.devRef .tc main_v27) = nar (m ((c : Thread nD τ).loc main_arg8)) := by
  show StableHlo.after hostOps1 (W2 m ρ c) (Proc.devRef .tc main_v27) = _
  after_results_simp
  rw [W2_arg8 m ρ c]
  <;> rfl

set_option maxHeartbeats 4000000 in
theorem W3_v28 : W3 m ρ c (Proc.devRef .tc main_v28) = nar (m ((c : Thread nD τ).loc main_arg9)) := by
  show StableHlo.after hostOps1 (W2 m ρ c) (Proc.devRef .tc main_v28) = _
  after_results_simp
  rw [W2_arg9 m ρ c]
  <;> rfl

set_option maxHeartbeats 4000000 in
theorem W3_v66 : W3 m ρ c (Proc.devRef .tc main_v66) = rowOf (m ((c : Thread nD τ).loc main_arg10)) := by
  show StableHlo.after hostOps1 (W2 m ρ c) (Proc.devRef .tc main_v66) = _
  after_results_simp
  rw [W2_arg10 m ρ c]
  <;> rfl

end Cert.KernelIdeal.KValue

end
-- ==== Proof.KHost2c.lean ====
/-
  The second host stretch of the kernel's @main writes no argument: the ones the last stretch reads are as launched.
-/
import proofs.«169115_j11269994184928_2_alg».proof.Proof.KHost1
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W3_arg1 : W3 m ρ c (Proc.devRef .tc main_arg1) = (m ((c : Thread nD τ).loc main_arg1)) := by
  show StableHlo.after hostOps1 (W2 m ρ c) (Proc.devRef .tc main_arg1) = _
  after_results_simp
  rw [W2_arg1 m ρ c]
  <;> rfl

set_option maxHeartbeats 4000000 in
theorem W3_arg2 : W3 m ρ c (Proc.devRef .tc main_arg2) = (m ((c : Thread nD τ).loc main_arg2)) := by
  show StableHlo.after hostOps1 (W2 m ρ c) (Proc.devRef .tc main_arg2) = _
  after_results_simp
  rw [W2_arg2 m ρ c]
  <;> rfl

set_option maxHeartbeats 4000000 in
theorem W3_arg11 : W3 m ρ c (Proc.devRef .tc main_arg11) = (m ((c : Thread nD τ).loc main_arg11)) := by
  show StableHlo.after hostOps1 (W2 m ρ c) (Proc.devRef .tc main_arg11) = _
  after_results_simp
  rw [W2_arg11 m ρ c]
  <;> rfl

set_option maxHeartbeats 4000000 in
theorem W3_arg12 : W3 m ρ c (Proc.devRef .tc main_arg12) = (m ((c : Thread nD τ).loc main_arg12)) := by
  show StableHlo.after hostOps1 (W2 m ρ c) (Proc.devRef .tc main_arg12) = _
  after_results_simp
  rw [W2_arg12 m ρ c]
  <;> rfl

set_option maxHeartbeats 4000000 in
theorem W3_arg13 : W3 m ρ c (Proc.devRef .tc main_arg13) = (m ((c : Thread nD τ).loc main_arg13)) := by
  show StableHlo.after hostOps1 (W2 m ρ c) (Proc.devRef .tc main_arg13) = _
  after_results_simp
  rw [W2_arg13 m ρ c]
  <;> rfl

end Cert.KernelIdeal.KValue

end
-- ==== Proof.KHost2d.lean ====
/-
  The second host stretch of the kernel's @main writes no argument: the ones the last stretch reads are as launched.
-/
import proofs.«169115_j11269994184928_2_alg».proof.Proof.KHost1
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W3_arg14 : W3 m ρ c (Proc.devRef .tc main_arg14) = (m ((c : Thread nD τ).loc main_arg14)) := by
  show StableHlo.after hostOps1 (W2 m ρ c) (Proc.devRef .tc main_arg14) = _
  after_results_simp
  rw [W2_arg14 m ρ c]
  <;> rfl

set_option maxHeartbeats 4000000 in
theorem W3_arg15 : W3 m ρ c (Proc.devRef .tc main_arg15) = (m ((c : Thread nD τ).loc main_arg15)) := by
  show StableHlo.after hostOps1 (W2 m ρ c) (Proc.devRef .tc main_arg15) = _
  after_results_simp
  rw [W2_arg15 m ρ c]
  <;> rfl

set_option maxHeartbeats 4000000 in
theorem W3_arg16 : W3 m ρ c (Proc.devRef .tc main_arg16) = (m ((c : Thread nD τ).loc main_arg16)) := by
  show StableHlo.after hostOps1 (W2 m ρ c) (Proc.devRef .tc main_arg16) = _
  after_results_simp
  rw [W2_arg16 m ρ c]
  <;> rfl

set_option maxHeartbeats 4000000 in
theorem W3_arg17 : W3 m ρ c (Proc.devRef .tc main_arg17) = (m ((c : Thread nD τ).loc main_arg17)) := by
  show StableHlo.after hostOps1 (W2 m ρ c) (Proc.devRef .tc main_arg17) = _
  after_results_simp
  rw [W2_arg17 m ρ c]
  <;> rfl

set_option maxHeartbeats 4000000 in
theorem W3_arg18 : W3 m ρ c (Proc.devRef .tc main_arg18) = (m ((c : Thread nD τ).loc main_arg18)) := by
  show StableHlo.after hostOps1 (W2 m ρ c) (Proc.devRef .tc main_arg18) = _
  after_results_simp
  rw [W2_arg18 m ρ c]
  <;> rfl

end Cert.KernelIdeal.KValue

end
-- ==== Proof.KHost3.lean ====
/-
  After region 1 the first layer's table is `kH1` of the arguments; the arguments and the two reciprocal-count columns
  are untouched by the region.
-/
import proofs.«169115_j11269994184928_2_alg».proof.Proof.KHost2a
import proofs.«169115_j11269994184928_2_alg».proof.Proof.KHost2b
import proofs.«169115_j11269994184928_2_alg».proof.Proof.KHost2c
import proofs.«169115_j11269994184928_2_alg».proof.Proof.KHost2d
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- After region 1 the first relational layer's array holds `kH1` of the arguments. -/
theorem W4_v67 : W4 m ρ c (Proc.devRef .tc main_v67) = (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 9).trans ((final1 (V3 m ρ) c).trans ?_)
  show G1 (W3 m ρ c (Proc.devRef .tc main_v46)) (W3 m ρ c (Proc.devRef .tc main_v64)) (W3 m ρ c (Proc.devRef .tc main_v2)) (W3 m ρ c (Proc.devRef .tc main_v25)) (W3 m ρ c (Proc.devRef .tc main_v26)) (W3 m ρ c (Proc.devRef .tc main_v65)) (W3 m ρ c (Proc.devRef .tc main_v27)) (W3 m ρ c (Proc.devRef .tc main_v28)) (W3 m ρ c (Proc.devRef .tc main_v66)) = _
  rw [W3_v46 m ρ c, W3_v64 m ρ c, W3_v2 m ρ c, W3_v25 m ρ c, W3_v26 m ρ c, W3_v65 m ρ c, W3_v27 m ρ c, W3_v28 m ρ c, W3_v66 m ρ c]
  rfl

theorem W4_arg1 : W4 m ρ c (Proc.devRef .tc main_arg1) = (m ((c : Thread nD τ).loc main_arg1)) :=
  (W4_of_ne m ρ c main_arg1 (by decide)).trans (W3_arg1 m ρ c)

theorem W4_arg2 : W4 m ρ c (Proc.devRef .tc main_arg2) = (m ((c : Thread nD τ).loc main_arg2)) :=
  (W4_of_ne m ρ c main_arg2 (by decide)).trans (W3_arg2 m ρ c)

theorem W4_arg11 : W4 m ρ c (Proc.devRef .tc main_arg11) = (m ((c : Thread nD τ).loc main_arg11)) :=
  (W4_of_ne m ρ c main_arg11 (by decide)).trans (W3_arg11 m ρ c)

theorem W4_arg12 : W4 m ρ c (Proc.devRef .tc main_arg12) = (m ((c : Thread nD τ).loc main_arg12)) :=
  (W4_of_ne m ρ c main_arg12 (by decide)).trans (W3_arg12 m ρ c)

theorem W4_arg13 : W4 m ρ c (Proc.devRef .tc main_arg13) = (m ((c : Thread nD τ).loc main_arg13)) :=
  (W4_of_ne m ρ c main_arg13 (by decide)).trans (W3_arg13 m ρ c)

theorem W4_arg14 : W4 m ρ c (Proc.devRef .tc main_arg14) = (m ((c : Thread nD τ).loc main_arg14)) :=
  (W4_of_ne m ρ c main_arg14 (by decide)).trans (W3_arg14 m ρ c)

theorem W4_arg15 : W4 m ρ c (Proc.devRef .tc main_arg15) = (m ((c : Thread nD τ).loc main_arg15)) :=
  (W4_of_ne m ρ c main_arg15 (by decide)).trans (W3_arg15 m ρ c)

theorem W4_arg16 : W4 m ρ c (Proc.devRef .tc main_arg16) = (m ((c : Thread nD τ).loc main_arg16)) :=
  (W4_of_ne m ρ c main_arg16 (by decide)).trans (W3_arg16 m ρ c)

theorem W4_arg17 : W4 m ρ c (Proc.devRef .tc main_arg17) = (m ((c : Thread nD τ).loc main_arg17)) :=
  (W4_of_ne m ρ c main_arg17 (by decide)).trans (W3_arg17 m ρ c)

theorem W4_arg18 : W4 m ρ c (Proc.devRef .tc main_arg18) = (m ((c : Thread nD τ).loc main_arg18)) :=
  (W4_of_ne m ρ c main_arg18 (by decide)).trans (W3_arg18 m ρ c)

theorem W4_v13 : W4 m ρ c (Proc.devRef .tc main_v13) = kInv (m ((c : Thread nD τ).loc main_arg1)) :=
  (W4_of_ne m ρ c main_v13 (by decide)).trans (W3_v13 m ρ c)

theorem W4_v24 : W4 m ρ c (Proc.devRef .tc main_v24) = kInv (m ((c : Thread nD τ).loc main_arg2)) :=
  (W4_of_ne m ρ c main_v24 (by decide)).trans (W3_v24 m ρ c)

end Cert.KernelIdeal.KValue

end
-- ==== Proof.KHost4a.lean ====
/-
  The last host stretch of the kernel's @main, read at the two mean-aggregated tables of the first layer's output and
  at that output: each is its named stage of the arguments.
-/
import proofs.«169115_j11269994184928_2_alg».proof.Proof.KHost3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W5_v90 : W5 m ρ c (Proc.devRef .tc main_v90) = kAgg (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) := by
  show StableHlo.after hostOps2 (W4 m ρ c) (Proc.devRef .tc main_v90) = _
  after_results_simp
  rw [W4_v67 m ρ c, W4_arg1 m ρ c, W4_v13 m ρ c]
  <;> rfl

set_option maxHeartbeats 4000000 in
theorem W5_v108 : W5 m ρ c (Proc.devRef .tc main_v108) = kAgg (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) := by
  show StableHlo.after hostOps2 (W4 m ρ c) (Proc.devRef .tc main_v108) = _
  after_results_simp
  rw [W4_v67 m ρ c, W4_arg2 m ρ c, W4_v24 m ρ c]
  <;> rfl

set_option maxHeartbeats 4000000 in
theorem W5_v67 : W5 m ρ c (Proc.devRef .tc main_v67) = (kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps2 (W4 m ρ c) (Proc.devRef .tc main_v67) = _
  after_results_simp
  rw [W4_v67 m ρ c]
  <;> rfl

end Cert.KernelIdeal.KValue

end
-- ==== Proof.KHost4b.lean ====
/-
  The last host stretch of the kernel's @main, read at the second layer's weights and the output weight (narrowed: the
  same tables) and at the biases (each as one row).
-/
import proofs.«169115_j11269994184928_2_alg».proof.Proof.KHost3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option maxHeartbeats 4000000 in
theorem W5_v68 : W5 m ρ c (Proc.devRef .tc main_v68) = nar (m ((c : Thread nD τ).loc main_arg11)) := by
  show StableHlo.after hostOps2 (W4 m ρ c) (Proc.devRef .tc main_v68) = _
  after_results_simp
  rw [W4_arg11 m ρ c]
  <;> rfl

set_option maxHeartbeats 4000000 in
theorem W5_v69 : W5 m ρ c (Proc.devRef .tc main_v69) = nar (m ((c : Thread nD τ).loc main_arg12)) := by
  show StableHlo.after hostOps2 (W4 m ρ c) (Proc.devRef .tc main_v69) = _
  after_results_simp
  rw [W4_arg12 m ρ c]
  <;> rfl

set_option maxHeartbeats 4000000 in
theorem W5_v109 : W5 m ρ c (Proc.devRef .tc main_v109) = rowOf (m ((c : Thread nD τ).loc main_arg13)) := by
  show StableHlo.after hostOps2 (W4 m ρ c) (Proc.devRef .tc main_v109) = _
  after_results_simp
  rw [W4_arg13 m ρ c]
  <;> rfl

set_option maxHeartbeats 4000000 in
theorem W5_v70 : W5 m ρ c (Proc.devRef .tc main_v70) = nar (m ((c : Thread nD τ).loc main_arg14)) := by
  show StableHlo.after hostOps2 (W4 m ρ c) (Proc.devRef .tc main_v70) = _
  after_results_simp
  rw [W4_arg14 m ρ c]
  <;> rfl

set_option maxHeartbeats 4000000 in
theorem W5_v71 : W5 m ρ c (Proc.devRef .tc main_v71) = nar (m ((c : Thread nD τ).loc main_arg15)) := by
  show StableHlo.after hostOps2 (W4 m ρ c) (Proc.devRef .tc main_v71) = _
  after_results_simp
  rw [W4_arg15 m ρ c]
  <;> rfl

set_option maxHeartbeats 4000000 in
theorem W5_v110 : W5 m ρ c (Proc.devRef .tc main_v110) = rowOf (m ((c : Thread nD τ).loc main_arg16)) := by
  show StableHlo.after hostOps2 (W4 m ρ c) (Proc.devRef .tc main_v110) = _
  after_results_simp
  rw [W4_arg16 m ρ c]
  <;> rfl

set_option maxHeartbeats 4000000 in
theorem W5_v72 : W5 m ρ c (Proc.devRef .tc main_v72) = narO (m ((c : Thread nD τ).loc main_arg17)) := by
  show StableHlo.after hostOps2 (W4 m ρ c) (Proc.devRef .tc main_v72) = _
  after_results_simp
  rw [W4_arg17 m ρ c]
  <;> rfl

set_option maxHeartbeats 4000000 in
theorem W5_v111 : W5 m ρ c (Proc.devRef .tc main_v111) = rowOf6 (m ((c : Thread nD τ).loc main_arg18)) := by
  show StableHlo.after hostOps2 (W4 m ρ c) (Proc.devRef .tc main_v111) = _
  after_results_simp
  rw [W4_arg18 m ρ c]
  <;> rfl

end Cert.KernelIdeal.KValue

end
-- ==== Proof.KHost5.lean ====
/-
  The kernel's result buffer at the end of @main is `kOut` of the arguments as launched.
-/
import proofs.«169115_j11269994184928_2_alg».proof.Proof.KHost4a
import proofs.«169115_j11269994184928_2_alg».proof.Proof.KHost4b
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- After region 2 the result array holds `kOut` of the arguments. -/
theorem W6_v112 : W6 m ρ c (Proc.devRef .tc main_v112) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 11).trans ((final2 (V5 m ρ) c).trans ?_)
  show G2 (W5 m ρ c (Proc.devRef .tc main_v90)) (W5 m ρ c (Proc.devRef .tc main_v108)) (W5 m ρ c (Proc.devRef .tc main_v67)) (W5 m ρ c (Proc.devRef .tc main_v68)) (W5 m ρ c (Proc.devRef .tc main_v69)) (W5 m ρ c (Proc.devRef .tc main_v109)) (W5 m ρ c (Proc.devRef .tc main_v70)) (W5 m ρ c (Proc.devRef .tc main_v71)) (W5 m ρ c (Proc.devRef .tc main_v110)) (W5 m ρ c (Proc.devRef .tc main_v72)) (W5 m ρ c (Proc.devRef .tc main_v111)) = _
  rw [W5_v90 m ρ c, W5_v108 m ρ c, W5_v67 m ρ c, W5_v68 m ρ c, W5_v69 m ρ c, W5_v109 m ρ c, W5_v70 m ρ c, W5_v71 m ρ c, W5_v110 m ρ c, W5_v72 m ρ c, W5_v111 m ρ c]
  rfl

end Cert.KernelIdeal.KValue

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Mean.lean ====
/-
  Mean aggregation, the two spellings.

  S is a table of per-row sums and D the per-row counts. The kernel's host side forms the reciprocal of the clamped count
  once, as a column, and multiplies: S(r,c) · (1 / max(D r, 1)). The reference divides: S(r,c) / max(D r, 1), the
  clamped count made a column and spread over the columns. On the extended reals these agree at every entry, whatever
  S and D hold.
-/
import Idealize.ShloMosaic.Lib.Pipeline.Value
import Idealize.ShloMosaic.Lib.ValueIdx
import Idealize.ShloMosaic.Lib.ValueLayout
import Idealize.ShloMosaic.PureOps.Ideal.Laws
import proofs.«169115_j11269994184928_2_alg».proof.Proof.Words
import proofs.«169115_j11269994184928_2_alg».proof.Proof.LibBroadcastIn
import proofs.«169115_j11269994184928_2_alg».proof.Proof.LibColumn

noncomputable section

namespace Cert.Mean

open Idealize.ShloMosaic Idealize.ShloMosaic.ValueIdx Cert.Words

/-- The count vector's companion of ones: the scalar word of 1.0 spread over `[n]`. -/
abbrev ones (n : ℕ) (hb0 : (⟨0, ![]⟩ : Shape).BroadcastsInDim ⟨1, ![n]⟩ (![] : Fin 0 → Fin 1)) : FVec Ideal ⟨1, ![n]⟩ .f32 :=
  broadcastInDim ⟨1, ![n]⟩ ![] hb0 (constant (F := Ideal) ⟨0, ![]⟩ .f32 0x3F800000#32)

theorem mean_rows {n w : ℕ} (S : FVec Ideal ⟨2, ![n, w]⟩ .f32) (D : FVec Ideal ⟨1, ![n]⟩ .f32)
    (hb0 : (⟨0, ![]⟩ : Shape).BroadcastsInDim ⟨1, ![n]⟩ (![] : Fin 0 → Fin 1))
    (hc : (⟨1, ![n]⟩ : Shape).ShapeCasts ⟨2, ![n, 1]⟩)
    (hrows : (⟨2, ![n, 1]⟩ : Shape).BroadcastsInDim ⟨2, ![n, w]⟩ (![0, 1] : Fin 2 → Fin 2))
    (hcol : (⟨1, ![n]⟩ : Shape).BroadcastsInDim ⟨2, ![n, 1]⟩ (![0] : Fin 1 → Fin 2)) :
    mulf S (broadcastInDim ⟨2, ![n, w]⟩ ![0, 1] hrows
        (shapeCast ⟨2, ![n, 1]⟩ (Host.divf (ones n hb0) (maximumf D (ones n hb0))) hc))
      = Host.divf S (broadcastInDim ⟨2, ![n, w]⟩ ![0, 1] hrows
          (broadcastInDim ⟨2, ![n, 1]⟩ ![0] hcol (maximumf D (ones n hb0)))) := by
  funext i
  obtain ⟨p, q, rfl⟩ : ∃ (p : Fin n) (q : Fin w), i = ix2 p q := ⟨i 0, i 1, eq_ix2 i⟩
  show S (ix2 p q) * broadcastInDim ⟨2, ![n, w]⟩ ![0, 1] hrows
        (shapeCast ⟨2, ![n, 1]⟩ (Host.divf (ones n hb0) (maximumf D (ones n hb0))) hc) (ix2 p q)
      = Ideal.div (S (ix2 p q)) (broadcastInDim ⟨2, ![n, w]⟩ ![0, 1] hrows
          (broadcastInDim ⟨2, ![n, 1]⟩ ![0] hcol (maximumf D (ones n hb0))) (ix2 p q))
  rw [Cert.LibBroadcastIn.rows_apply, Cert.LibBroadcastIn.rows_apply, Cert.LibColumn.shapeCast_a_a1_apply,
    Cert.LibBroadcastIn.col_apply]
  show S (ix2 p q) * Ideal.div (ones n hb0 (ix1 p)) (max (D (ix1 p)) (ones n hb0 (ix1 p)))
      = Ideal.div (S (ix2 p q)) (max (D (ix1 p)) (ones n hb0 (ix1 p)))
  rw [show ones n hb0 (ix1 p) = w1 from Cert.LibBroadcastIn.scalar_apply hb0 _ _]
  exact mean_law _ _

end Cert.Mean

end
-- ==== Proof.Bridge.lean ====
/-
  The kernel's stages are the reference's stages.

  Stage by stage, as whole tables: the embedding layer (a three-term product row by column, the bias, the clamp at zero);
  the mean aggregation along each edge list (the same gather and the same scatter-add on both sides; the kernel multiplies
  the sums by the reciprocal of the clamped count where the reference divides by the clamped count); each relational layer
  (the kernel's one left-nested sum times one half against the reference's two convolutions added and divided by two);
  the output projection. No step needs the entries to be finite.
-/
import proofs.«169115_j11269994184928_2_alg».proof.Proof.KSpec
import proofs.«169115_j11269994184928_2_alg».proof.Proof.Mean
import proofs.«169115_j11269994184928_2_alg».proof.Proof.Gen.ReferenceIdeal.Read
import Idealize.ShloMosaic.Lib.ValueLayout

set_option maxRecDepth 16384

noncomputable section

namespace Cert.Bridge

open Idealize.ShloMosaic Idealize.ShloMosaic.ValueIdx
open Cert.ReferenceIdeal Cert.ReferenceIdeal.Read
open Cert.KernelIdeal.KValue (kH0 kH1 kOut kAgg kSum kCnt kInv kOnes nar narE narO rowOf rowOf6 G0 G1 G2 zw)
open Cert.Layer
open scoped BigOperators

/-- A sum over products read through two index families that are row r and column c. -/
theorem dot_read {n kk o : ℕ} (X : Mat n kk) (W : Mat kk o) (l : Fin kk → (⟨2, ![n, kk]⟩ : Shape).Idx) (rr : Fin kk → (⟨2, ![kk, o]⟩ : Shape).Idx)
    (r : Fin n) (c : Fin o) (hl : ∀ k, l k = ix2 r k) (hr : ∀ k, rr k = ix2 k c) :
    (∑ k : Fin kk, X (l k) * W (rr k)) = dotRow X W r c := by
  unfold dotRow
  simp only [hl, hr]

/-- A rank-2 index is the pair of its coordinates. -/
theorem idx2 {a b : ℕ} (f : (⟨2, ![a, b]⟩ : Shape).Idx) (p : Fin a) (q : Fin b) (h0 : (f 0).val = p.val) (h1 : (f 1).val = q.val) :
    f = ix2 p q :=
  funext fun ax => Fin.ext (by match ax with | ⟨0, _⟩ => exact h0 | ⟨1, _⟩ => exact h1)

/-- A rank-1 index is its coordinate. -/
theorem vec1 {a : ℕ} (g : (⟨1, ![a]⟩ : Shape).Idx) (q : Fin a) (h : (g 0).val = q.val) : g = ix1 q :=
  funext fun ax => Fin.ext (by match ax with | ⟨0, _⟩ => exact h)

/-- A bias made one row reads the bias at the column. -/
theorem rowOf_apply (b : FVec Ideal Cert.KernelIdeal.S128 .f32) (c : Fin 128) : rowOf b (ix2 (0 : Fin 1) c) = b (ix1 c) :=
  shapeCast_a_1a_apply b _ 0 c

/-- The embedding layer. -/
theorem h0_eq (x0 : FVec Ideal Cert.KernelIdeal.S50000x3 .f32) (x3 : FVec Ideal Cert.KernelIdeal.S3x128 .f32) (x4 : FVec Ideal Cert.KernelIdeal.S128 .f32) :
    kH0 x0 x3 x4 = val_main_v4 (F := Ideal) x0 x3 x4 := by
  funext i
  rw [val_main_v4_apply, val_main_v3_apply, val_main_v0_apply, val_main_v2_apply, val_main_v1_apply,
    dot_read x0 x3 (lidx_main_v0 i) (ridx_main_v0 i) ⟨(i 0).val, (i 0).isLt⟩ ⟨(i 1).val, (i 1).isLt⟩ (fun k => idx2 _ _ _ rfl rfl) (fun k => idx2 _ _ _ rfl rfl),
    vec1 (idx_main_v1 (idx_main_v2 i)) (⟨(i 1).val, (i 1).isLt⟩ : Fin 128) rfl]
  unfold kH0 G0
  rw [rowOf_apply]
  rfl

open Cert.ReferenceIdeal.Facts₀ Cert.ReferenceIdeal.Facts in
/-- The reference's spelling of the targets column. -/
def rDst (x : Cert.KernelIdeal.KValue.Edges) : (⟨S625000x1, .i32⟩ : BufTy).Contents (Elt Ideal) :=
  broadcastInDim S625000x1 ![0] bcast_S625000_S625000x1_0
    (shapeCast S625000 (extractStridedSlice S1x625000 ![1, 0] x slices_S2x625000_S1x625000_1_0) shapeCasts_S1x625000_S625000)

open Cert.ReferenceIdeal.Facts₀ Cert.ReferenceIdeal.Facts in
def rSrcRaw (x : Cert.KernelIdeal.KValue.Edges) : (⟨S625000, .i32⟩ : BufTy).Contents (Elt Ideal) :=
  shapeCast S625000 (extractStridedSlice S1x625000 ![0, 0] x slices_S2x625000_S1x625000_0_0) shapeCasts_S1x625000_S625000

open Cert.ReferenceIdeal.Facts₀ Cert.ReferenceIdeal.Facts in
/-- The reference's spelling of the wrapped sources column. -/
def rSrc (x : Cert.KernelIdeal.KValue.Edges) : (⟨S625000x1, .i32⟩ : BufTy).Contents (Elt Ideal) :=
  broadcastInDim S625000x1 ![0] bcast_S625000_S625000x1_0
    (select (cmpi .slt (rSrcRaw x) (broadcastInDim S625000 ![] bcast_S_S625000 (constantI S_ 32 0#32)))
      (addi (rSrcRaw x) (broadcastInDim S625000 ![] bcast_S_S625000 (constantI S_ 32 50000#32)))
      (rSrcRaw x))

open Cert.ReferenceIdeal.Facts₀ Cert.ReferenceIdeal.Facts in
/-- The reference's per-target sums of source rows. -/
def rSum (H : FVec Ideal S50000x128 .f32) (x : Cert.KernelIdeal.KValue.Edges) : FVec Ideal S50000x128 .f32 :=
  Host.scatterAdd scatter_S50000x128_S625000x1_S625000x128_1_0_0_1
    (broadcastInDim S50000x128 ![] bcast_S_S50000x128 (constant (F := Ideal) S_ .f32 0x00000000#32)) (rDst x)
    (Host.gather gather_S50000x128_S625000x1_S625000x128_1_0_n_n_0_1_1128 H (rSrc x))

open Cert.ReferenceIdeal.Facts₀ Cert.ReferenceIdeal.Facts in
abbrev rOnes : FVec Ideal S50000 .f32 := broadcastInDim S50000 ![] bcast_S_S50000 (constant (F := Ideal) S_ .f32 0x3F800000#32)

open Cert.ReferenceIdeal.Facts₀ Cert.ReferenceIdeal.Facts in
/-- The reference's per-target edge counts. -/
def rCnt (x : Cert.KernelIdeal.KValue.Edges) : FVec Ideal S50000 .f32 :=
  Host.scatterAdd scatter_S50000_S625000x1_S625000_n_0_0_1
    (broadcastInDim S50000 ![] bcast_S_S50000 (constant (F := Ideal) S_ .f32 0x00000000#32)) (rDst x)
    (broadcastInDim S625000 ![] bcast_S_S625000 (constant (F := Ideal) S_ .f32 0x3F800000#32))

open Cert.ReferenceIdeal.Facts₀ Cert.ReferenceIdeal.Facts in
/-- The reference's mean: the sums divided by the clamped counts spread over the columns. -/
def rAgg (H : FVec Ideal S50000x128 .f32) (x : Cert.KernelIdeal.KValue.Edges) : FVec Ideal S50000x128 .f32 :=
  Host.divf (rSum H x) (broadcastInDim S50000x128 ![0, 1] bcast_S50000x1_S50000x128_0_1
    (broadcastInDim S50000x1 ![0] bcast_S50000_S50000x1_0 (maximumf (rCnt x) rOnes)))

/-- A widening of float format is the identity on a table of extended reals. -/
theorem extf_id {s : Shape} (v : FVec Ideal s .bf16) (h : FTy.bits .bf16 < FTy.bits .f32) : (extf .f32 v h : FVec Ideal s .f32) = v := rfl

theorem kDst_eq (x : Cert.KernelIdeal.KValue.Edges) : Cert.KernelIdeal.KValue.kDst x = rDst x := rfl
theorem kSrc_eq (x : Cert.KernelIdeal.KValue.Edges) : Cert.KernelIdeal.KValue.kSrc x = rSrc x := rfl

theorem kCnt_eq (x : Cert.KernelIdeal.KValue.Edges) : kCnt x = rCnt x := by
  unfold Cert.KernelIdeal.KValue.kCnt rCnt
  rw [kDst_eq]
  rfl

theorem kSum_eq (H : FVec Ideal S50000x128 .f32) (x : Cert.KernelIdeal.KValue.Edges) : kSum H x = rSum H x := by
  unfold Cert.KernelIdeal.KValue.kSum rSum
  rw [extf_id, kDst_eq, kSrc_eq]
  rfl

open Cert.KernelIdeal.Facts₀ Cert.KernelIdeal.Facts in
/-- The kernel's mean, at abstract sums and counts: multiplying by the reciprocal column is dividing. -/
theorem agg_abs (S : FVec Ideal Cert.KernelIdeal.S50000x128 .f32) (D : FVec Ideal Cert.KernelIdeal.S50000 .f32)
    (hcol : (⟨1, ![50000]⟩ : Shape).BroadcastsInDim ⟨2, ![50000, 1]⟩ (![0] : Fin 1 → Fin 2)) :
    (truncf .bf16 (mulf S (broadcastInDim Cert.KernelIdeal.S50000x128 ![0, 1] bcast_S50000x1_S50000x128_0_1
        (shapeCast Cert.KernelIdeal.S50000x1 (Host.divf kOnes (maximumf D kOnes)) shapeCasts_S50000_S50000x1))) bitsLt_bf16_f32 : FVec Ideal Cert.KernelIdeal.S50000x128 .bf16)
      = Host.divf S (broadcastInDim Cert.KernelIdeal.S50000x128 ![0, 1] bcast_S50000x1_S50000x128_0_1
        (broadcastInDim Cert.KernelIdeal.S50000x1 ![0] hcol (maximumf D kOnes))) := by
  funext i
  rw [truncf_apply]
  exact congrFun (Cert.Mean.mean_rows S D bcast_S_S50000 shapeCasts_S50000_S50000x1 bcast_S50000x1_S50000x128_0_1 hcol) i

/-- The kernel's mean along an edge list is the reference's. -/
theorem agg_eq (H : FVec Ideal S50000x128 .f32) (x : Cert.KernelIdeal.KValue.Edges) : kAgg H x = rAgg H x := by
  unfold Cert.KernelIdeal.KValue.kAgg Cert.KernelIdeal.KValue.kInv
  rw [agg_abs (kSum H x) (kCnt x) Cert.ReferenceIdeal.Facts₀.bcast_S50000_S50000x1_0, kSum_eq, kCnt_eq]
  rfl

theorem v27_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) : val_main_v27 (F := Ideal) x0 x1 x3 x4 = rAgg (val_main_v4 (F := Ideal) x0 x3 x4) x1 := rfl
theorem v56_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) : val_main_v56 (F := Ideal) x0 x2 x3 x4 = rAgg (val_main_v4 (F := Ideal) x0 x3 x4) x2 := rfl
theorem v89_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) : val_main_v89 (F := Ideal) x0 x1 x2 x3 x4 x5 x6 x7 x8 x9 x10 = rAgg (val_main_v66 (F := Ideal) x0 x1 x2 x3 x4 x5 x6 x7 x8 x9 x10) x1 := rfl
theorem v118_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) : val_main_v118 (F := Ideal) x0 x1 x2 x3 x4 x5 x6 x7 x8 x9 x10 = rAgg (val_main_v66 (F := Ideal) x0 x1 x2 x3 x4 x5 x6 x7 x8 x9 x10) x2 := rfl

/-- The layer's halved sum at row r, column c is the reference's stage at (r, c). -/
theorem pre0 (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) (i : S50000x128.Idx) :
    Cert.Layer.pre (val_main_v27 (F := Ideal) x0 x1 x3 x4) (val_main_v56 (F := Ideal) x0 x2 x3 x4) (val_main_v4 (F := Ideal) x0 x3 x4) (nar x5) (nar x6) (rowOf x7) (nar x8) (nar x9) (rowOf x10)
        (⟨(i 0).val, (i 0).isLt⟩ : Fin 50000) (⟨(i 1).val, (i 1).isLt⟩ : Fin 128)
      = val_main_v65 (F := Ideal) x0 x1 x2 x3 x4 x5 x6 x7 x8 x9 x10 i := by
  rw [← Cert.Layer.pre_eq]
  rw [val_main_v65_apply, val_main_v63_apply, val_main_v33_apply, val_main_v30_apply, val_main_v28_apply, val_main_v29_apply,
    val_main_v32_apply, val_main_v31_apply, val_main_v62_apply, val_main_v59_apply, val_main_v57_apply, val_main_v58_apply,
    val_main_v61_apply, val_main_v60_apply, val_main_v64_apply]
  rw [dot_read _ x5 (lidx_main_v28 i) (ridx_main_v28 i) ⟨(i 0).val, (i 0).isLt⟩ ⟨(i 1).val, (i 1).isLt⟩ (fun k => idx2 _ _ _ rfl rfl) (fun k => idx2 _ _ _ rfl rfl),
    dot_read _ x6 (lidx_main_v29 i) (ridx_main_v29 i) ⟨(i 0).val, (i 0).isLt⟩ ⟨(i 1).val, (i 1).isLt⟩ (fun k => idx2 _ _ _ rfl rfl) (fun k => idx2 _ _ _ rfl rfl),
    dot_read _ x8 (lidx_main_v57 i) (ridx_main_v57 i) ⟨(i 0).val, (i 0).isLt⟩ ⟨(i 1).val, (i 1).isLt⟩ (fun k => idx2 _ _ _ rfl rfl) (fun k => idx2 _ _ _ rfl rfl),
    dot_read _ x9 (lidx_main_v58 i) (ridx_main_v58 i) ⟨(i 0).val, (i 0).isLt⟩ ⟨(i 1).val, (i 1).isLt⟩ (fun k => idx2 _ _ _ rfl rfl) (fun k => idx2 _ _ _ rfl rfl),
    vec1 (idx_main_v31 (idx_main_v32 i)) (⟨(i 1).val, (i 1).isLt⟩ : Fin 128) rfl,
    vec1 (idx_main_v60 (idx_main_v61 i)) (⟨(i 1).val, (i 1).isLt⟩ : Fin 128) rfl,
    rowOf_apply, rowOf_apply]
  rfl

/-- The layer's halved sum at row r, column c is the reference's stage at (r, c). -/
theorem pre1 (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32)
    (x11 x12 : FVec Ideal Cert.KernelIdeal.S128x128 .f32) (x13 : FVec Ideal Cert.KernelIdeal.S128 .f32) (x14 x15 : FVec Ideal Cert.KernelIdeal.S128x128 .f32) (x16 : FVec Ideal Cert.KernelIdeal.S128 .f32) (i : S50000x128.Idx) :
    Cert.Layer.pre (val_main_v89 (F := Ideal) x0 x1 x2 x3 x4 x5 x6 x7 x8 x9 x10) (val_main_v118 (F := Ideal) x0 x1 x2 x3 x4 x5 x6 x7 x8 x9 x10) (val_main_v66 (F := Ideal) x0 x1 x2 x3 x4 x5 x6 x7 x8 x9 x10) (nar x11) (nar x12) (rowOf x13) (nar x14) (nar x15) (rowOf x16)
        (⟨(i 0).val, (i 0).isLt⟩ : Fin 50000) (⟨(i 1).val, (i 1).isLt⟩ : Fin 128)
      = val_main_v127 (F := Ideal) x0 x1 x2 x3 x4 x5 x6 x7 x8 x9 x10 x11 x12 x13 x14 x15 x16 i := by
  rw [← Cert.Layer.pre_eq]
  rw [val_main_v127_apply, val_main_v125_apply, val_main_v95_apply, val_main_v92_apply, val_main_v90_apply, val_main_v91_apply,
    val_main_v94_apply, val_main_v93_apply, val_main_v124_apply, val_main_v121_apply, val_main_v119_apply, val_main_v120_apply,
    val_main_v123_apply, val_main_v122_apply, val_main_v126_apply]
  rw [dot_read _ x11 (lidx_main_v90 i) (ridx_main_v90 i) ⟨(i 0).val, (i 0).isLt⟩ ⟨(i 1).val, (i 1).isLt⟩ (fun k => idx2 _ _ _ rfl rfl) (fun k => idx2 _ _ _ rfl rfl),
    dot_read _ x12 (lidx_main_v91 i) (ridx_main_v91 i) ⟨(i 0).val, (i 0).isLt⟩ ⟨(i 1).val, (i 1).isLt⟩ (fun k => idx2 _ _ _ rfl rfl) (fun k => idx2 _ _ _ rfl rfl),
    dot_read _ x14 (lidx_main_v119 i) (ridx_main_v119 i) ⟨(i 0).val, (i 0).isLt⟩ ⟨(i 1).val, (i 1).isLt⟩ (fun k => idx2 _ _ _ rfl rfl) (fun k => idx2 _ _ _ rfl rfl),
    dot_read _ x15 (lidx_main_v120 i) (ridx_main_v120 i) ⟨(i 0).val, (i 0).isLt⟩ ⟨(i 1).val, (i 1).isLt⟩ (fun k => idx2 _ _ _ rfl rfl) (fun k => idx2 _ _ _ rfl rfl),
    vec1 (idx_main_v93 (idx_main_v94 i)) (⟨(i 1).val, (i 1).isLt⟩ : Fin 128) rfl,
    vec1 (idx_main_v122 (idx_main_v123 i)) (⟨(i 1).val, (i 1).isLt⟩ : Fin 128) rfl,
    rowOf_apply, rowOf_apply]
  rfl

/-- The first relational layer. -/
theorem h1_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32) : kH1 x0 x1 x2 x3 x4 x5 x6 x7 x8 x9 x10 = val_main_v66 (F := Ideal) x0 x1 x2 x3 x4 x5 x6 x7 x8 x9 x10 := by
  unfold Cert.KernelIdeal.KValue.kH1
  rw [h0_eq, agg_eq, agg_eq, ← v27_eq x0 x1 x2 x3 x4 x5 x6 x7 x8 x9 x10, ← v56_eq x0 x1 x2 x3 x4 x5 x6 x7 x8 x9 x10]
  funext i
  rw [val_main_v66_apply, ← pre0]
  rfl

/-- A bias made one row of six reads the bias at the column. -/
theorem rowOf6_apply (b : FVec Ideal Cert.KernelIdeal.S6 .f32) (c : Fin 6) : rowOf6 b (ix2 (0 : Fin 1) c) = b (ix1 c) :=
  shapeCast_a_1a_apply b _ 0 c

/-- The second relational layer and the output projection. -/
theorem out_eq (x0 : FVec Ideal Cert.KernelIdeal.S50000x3 .f32) (x1 x2 : Cert.KernelIdeal.KValue.Edges) (x3 : FVec Ideal Cert.KernelIdeal.S3x128 .f32) (x4 : FVec Ideal Cert.KernelIdeal.S128 .f32)
    (x5 x6 : FVec Ideal Cert.KernelIdeal.S128x128 .f32) (x7 : FVec Ideal Cert.KernelIdeal.S128 .f32) (x8 x9 : FVec Ideal Cert.KernelIdeal.S128x128 .f32) (x10 : FVec Ideal Cert.KernelIdeal.S128 .f32)
    (x11 x12 : FVec Ideal Cert.KernelIdeal.S128x128 .f32) (x13 : FVec Ideal Cert.KernelIdeal.S128 .f32) (x14 x15 : FVec Ideal Cert.KernelIdeal.S128x128 .f32) (x16 : FVec Ideal Cert.KernelIdeal.S128 .f32)
    (x17 : FVec Ideal Cert.KernelIdeal.S128x6 .f32) (x18 : FVec Ideal Cert.KernelIdeal.S6 .f32) : kOut x0 x1 x2 x3 x4 x5 x6 x7 x8 x9 x10 x11 x12 x13 x14 x15 x16 x17 x18 = val_main_v131 (F := Ideal) x0 x1 x2 x3 x4 x5 x6 x7 x8 x9 x10 x11 x12 x13 x14 x15 x16 x17 x18 := by
  unfold Cert.KernelIdeal.KValue.kOut
  rw [h1_eq, agg_eq, agg_eq, ← v89_eq x0 x1 x2 x3 x4 x5 x6 x7 x8 x9 x10, ← v118_eq x0 x1 x2 x3 x4 x5 x6 x7 x8 x9 x10]
  funext i
  rw [val_main_v131_apply, val_main_v128_apply, val_main_v130_apply, val_main_v129_apply,
    vec1 (idx_main_v129 (idx_main_v130 i)) (⟨(i 1).val, (i 1).isLt⟩ : Fin 6) rfl]
  unfold Cert.KernelIdeal.KValue.G2
  rw [rowOf6_apply]
  refine congrArg₂ (· + ·) (Finset.sum_congr rfl fun k _ => ?_) rfl
  rw [idx2 (lidx_main_v128 i k) (⟨(i 0).val, (i 0).isLt⟩ : Fin 50000) k rfl rfl,
    idx2 (ridx_main_v128 i k) k (⟨(i 1).val, (i 1).isLt⟩ : Fin 6) rfl rfl,
    ← pre1 x0 x1 x2 x3 x4 x5 x6 x7 x8 x9 x10 x11 x12 x13 x14 x15 x16 (ix2 (⟨(i 0).val, (i 0).isLt⟩ : Fin 50000) k)]
  rfl

end Cert.Bridge

end
-- ==== Proof.lean ====
/-
  The certificate of a two-layer relational graph network over 50000 nodes and two edge lists of 625000 edges each.

  The kernel runs three tiled regions — an embedding layer, a first relational layer, a second relational layer fused with
  the output projection — among host stretches that gather rows at the edge sources, scatter-add them at the edge
  targets and scale the sums by the reciprocal of the clamped edge count. The reference does the same on the host: it
  divides the sums by the clamped count, forms each relation's convolution separately, adds the two and divides by two.

  On the extended reals the two agree at every entry of the logits, with no finiteness needed: a change of float format
  is the identity, a tiled product is the whole product row by row, s · (1 / max d 1) = s / max d 1, addition is
  associative, and x · 0.5 = x / 2. The three frames are the generated ones (the reference's is its generated run with
  the result dropped); the idealization rewrote nothing, so `preserves` is trivial.
-/
import proofs.«169115_j11269994184928_2_alg».proof.Defs
import proofs.«169115_j11269994184928_2_alg».proof.Proof.Gen.Kernel
import proofs.«169115_j11269994184928_2_alg».proof.Proof.Gen.Kernel.Skeleton
import proofs.«169115_j11269994184928_2_alg».proof.Proof.Gen.Kernel.Launch
import proofs.«169115_j11269994184928_2_alg».proof.Proof.Gen.Kernel.Points
import proofs.«169115_j11269994184928_2_alg».proof.Proof.Gen.Kernel.Frame
import proofs.«169115_j11269994184928_2_alg».proof.Proof.Gen.KernelIdeal
import proofs.«169115_j11269994184928_2_alg».proof.Proof.Gen.KernelIdeal.Skeleton
import proofs.«169115_j11269994184928_2_alg».proof.Proof.Gen.KernelIdeal.Launch
import proofs.«169115_j11269994184928_2_alg».proof.Proof.Gen.KernelIdeal.Points
import proofs.«169115_j11269994184928_2_alg».proof.Proof.Gen.KernelIdeal.Frame
import proofs.«169115_j11269994184928_2_alg».proof.Proof.Gen.ReferenceIdeal
import proofs.«169115_j11269994184928_2_alg».proof.Proof.Gen.Pre_finite_inputs
import proofs.«169115_j11269994184928_2_alg».proof.Proof.Gen.ReferenceIdeal.Run
import proofs.«169115_j11269994184928_2_alg».proof.Proof.Gen.ReferenceIdeal.Read
import proofs.«169115_j11269994184928_2_alg».proof.Proof.KRun
import proofs.«169115_j11269994184928_2_alg».proof.Proof.KHost5
import proofs.«169115_j11269994184928_2_alg».proof.Proof.Bridge
import Idealize.ShloMosaic.Adequacy
import Idealize.ShloMosaic.Init

set_option maxRecDepth 16384

noncomputable section

namespace Cert.Proof

open Idealize.ShloMosaic Idealize.SL.Sem

/-- Both idealized programs end with the logits at `kOut` of the arguments: the kernel by its run read through the three
    regions and host stretches, the reference by its generated run, whose term is the same table stage by stage. -/
theorem algebraic : Cert.algebraic_KernelIdeal_ReferenceIdeal := by
  intro m ρ m' ρ' _ hagree
  refine ⟨fun c => Cert.KernelIdeal.KValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KValue.W6_v112 m ρ c), (h c).2⟩)
      (Cert.KernelIdeal.KValue.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [Cert.ReferenceIdeal.Read.val_main_v131_eq m' c, e0, e1, e2, e3, e4, e5, e6, e7, e8, e9, e10, e11, e12, e13, e14, e15, e16, e17, e18]
    exact (Cert.Bridge.out_eq _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
